-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S5x128x128 : Shape := ⟨3, ![5, 128, 128]⟩
abbrev S5x128 : Shape := ⟨2, ![5, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S5x128 .f32) (main_arg7 : FVec F S128x1 .f32) (main_arg8 : FVec F S1 .f32) (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S5x128x128 .f32) (main_arg4 : FVec F S5x128 .f32) (main_arg5 : FVec F S5x128x128 .f32) (main_arg6 : FVec F S5x128 .f32) (main_arg7 : FVec F S128x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128x128 .f32 := Host.absf main_arg3
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg4
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128x128 .f32 := Host.absf main_arg5
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S5x128x128 : Shape := ⟨3, ![5, 128, 128]⟩
abbrev S5x128 : Shape := ⟨2, ![5, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S1000x128 : Shape := ⟨2, ![1000, 128]⟩
abbrev S50000x1 : Shape := ⟨2, ![50000, 1]⟩
abbrev S1000x1 : Shape := ⟨2, ![1000, 1]⟩
abbrev S1x1 : Shape := ⟨2, ![1, 1]⟩

abbrev nBuf : Space → Nat
  | .hbm => 152
  | .vmem => 50
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S5x128x128, .f32⟩
  | 4 => ⟨S5x128, .f32⟩
  | 5 => ⟨S5x128x128, .f32⟩
  | 6 => ⟨S5x128, .f32⟩
  | 7 => ⟨S128x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S1x128x128, .f32⟩
  | 27 => ⟨S128x128, .f32⟩
  | 28 => ⟨S1x128, .f32⟩
  | 29 => ⟨S128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S1x128, .f32⟩
  | 36 => ⟨S50000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S1x128x128, .f32⟩
  | 51 => ⟨S128x128, .f32⟩
  | 52 => ⟨S1x128, .f32⟩
  | 53 => ⟨S128, .f32⟩
  | 54 => ⟨S1x128x128, .f32⟩
  | 55 => ⟨S128x128, .f32⟩
  | 56 => ⟨S1x128, .f32⟩
  | 57 => ⟨S128, .f32⟩
  | 58 => ⟨S1x128, .f32⟩
  | 59 => ⟨S1x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S1x128x128, .f32⟩
  | 75 => ⟨S128x128, .f32⟩
  | 76 => ⟨S1x128, .f32⟩
  | 77 => ⟨S128, .f32⟩
  | 78 => ⟨S1x128x128, .f32⟩
  | 79 => ⟨S128x128, .f32⟩
  | 80 => ⟨S1x128, .f32⟩
  | 81 => ⟨S128, .f32⟩
  | 82 => ⟨S1x128, .f32⟩
  | 83 => ⟨S1x128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S1x128x128, .f32⟩
  | 99 => ⟨S128x128, .f32⟩
  | 100 => ⟨S1x128, .f32⟩
  | 101 => ⟨S128, .f32⟩
  | 102 => ⟨S1x128x128, .f32⟩
  | 103 => ⟨S128x128, .f32⟩
  | 104 => ⟨S1x128, .f32⟩
  | 105 => ⟨S128, .f32⟩
  | 106 => ⟨S1x128, .f32⟩
  | 107 => ⟨S1x128, .f32⟩
  | 108 => ⟨S50000x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S1x128x128, .f32⟩
  | 123 => ⟨S128x128, .f32⟩
  | 124 => ⟨S1x128, .f32⟩
  | 125 => ⟨S128, .f32⟩
  | 126 => ⟨S1x128x128, .f32⟩
  | 127 => ⟨S128x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S50000x128, .f32⟩
  | 5 => ⟨S_, .f32⟩
  | 6 => ⟨S1000x128, .f32⟩
  | 7 => ⟨S50000x1, .i32⟩
  | 8 => ⟨S1000x128, .f32⟩
  | 9 => ⟨S_, .f32⟩
  | 10 => ⟨S50000x1, .f32⟩
  | 11 => ⟨S_, .f32⟩
  | 12 => ⟨S1000x1, .f32⟩
  | 13 => ⟨S50000x1, .i32⟩
  | 14 => ⟨S1000x1, .f32⟩
  | 15 => ⟨S_, .f32⟩
  | 16 => ⟨S1000x1, .f32⟩
  | 17 => ⟨S1000x1, .f32⟩
  | 18 => ⟨S1000x128, .f32⟩
  | 19 => ⟨S1000x128, .f32⟩
  | 20 => ⟨S1000x1, .f32⟩
  | 21 => ⟨S1x1, .f32⟩
  | 22 => ⟨S1000x1, .f32⟩
  | 23 => ⟨S1000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_4 : Ref sig .tc := ⟨.hbm, 61, rfl⟩
abbrev main_v46 : Ref sig .tc := ⟨.hbm, 62, rfl⟩
abbrev main_v47 : Ref sig .tc := ⟨.hbm, 63, rfl⟩
abbrev main_c_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_7 : Ref sig .tc := ⟨.hbm, 85, rfl⟩
abbrev main_v67 : Ref sig .tc := ⟨.hbm, 86, rfl⟩
abbrev main_v68 : Ref sig .tc := ⟨.hbm, 87, rfl⟩
abbrev main_c_8 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_c_10 : Ref sig .tc := ⟨.hbm, 109, rfl⟩
abbrev main_v88 : Ref sig .tc := ⟨.hbm, 110, rfl⟩
abbrev main_v89 : Ref sig .tc := ⟨.hbm, 111, rfl⟩
abbrev main_c_11 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_12 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_cst_13 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_14 : Ref sig .tc := ⟨.hbm, 137, rfl⟩
abbrev main_v112 : Ref sig .tc := ⟨.hbm, 138, rfl⟩
abbrev main_cst_15 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_16 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S1000x128 : S_.BroadcastsInDim S1000x128 (![] : Fin 0 → Fin S1000x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S1000x128_S50000x1_S50000x128_1_0_0_1_wf : ScatterDims.WF S1000x128 S50000x1 S50000x128 [1] [0] [0] 1
  scatter_S1000x1_S50000x1_S50000x1_1_0_0_1_wf : ScatterDims.WF S1000x1 S50000x1 S50000x1 [1] [0] [0] 1
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000x1_S50000x1_S50000x1_1_0_0_1 : ScatterDims S1000x1 S50000x1 S50000x1 where
  updateWindowDims := [1]
  insertedWindowDims := [0]
  scatterDimsToOperandDims := [0]
  indexVectorDim := 1
  wf := scatter_S1000x1_S50000x1_S50000x1_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v86) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v87) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v87) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v97) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v99) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v106) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v103) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v107) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v108) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S5x128x128 : Shape := ⟨3, ![5, 128, 128]⟩
abbrev S5x128 : Shape := ⟨2, ![5, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1000x128 : Shape := ⟨2, ![1000, 128]⟩
abbrev S50000x1 : Shape := ⟨2, ![50000, 1]⟩
abbrev S1000x1 : Shape := ⟨2, ![1000, 1]⟩
abbrev S1x1 : Shape := ⟨2, ![1, 1]⟩

abbrev nBuf : Space → Nat
  | .hbm => 212
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S5x128x128, .f32⟩
  | 4 => ⟨S5x128, .f32⟩
  | 5 => ⟨S5x128x128, .f32⟩
  | 6 => ⟨S5x128, .f32⟩
  | 7 => ⟨S128x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x128, .f32⟩
  | 63 => ⟨S1x128x128, .f32⟩
  | 64 => ⟨S128x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S1x128x128, .f32⟩
  | 75 => ⟨S128x128, .f32⟩
  | 76 => ⟨S50000x128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S50000x128, .f32⟩
  | 7 => ⟨S1x128x128, .f32⟩
  | 8 => ⟨S128x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S1x128x128, .f32⟩
  | 19 => ⟨S128x128, .f32⟩
  | 20 => ⟨S50000x128, .f32⟩
  | 21 => ⟨S1x128, .f32⟩
  | 22 => ⟨S128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x128, .f32⟩
  | 43 => ⟨S1x128x128, .f32⟩
  | 44 => ⟨S128x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S1x128x128, .f32⟩
  | 55 => ⟨S128x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S_, .f32⟩
  | 66 => ⟨S1000x128, .f32⟩
  | 67 => ⟨S50000x1, .i32⟩
  | 68 => ⟨S1000x128, .f32⟩
  | 69 => ⟨S_, .f32⟩
  | 70 => ⟨S50000x1, .f32⟩
  | 71 => ⟨S_, .f32⟩
  | 72 => ⟨S1000x1, .f32⟩
  | 73 => ⟨S50000x1, .i32⟩
  | 74 => ⟨S1000x1, .f32⟩
  | 75 => ⟨S_, .f32⟩
  | 76 => ⟨S1000x1, .f32⟩
  | 77 => ⟨S1000x1, .f32⟩
  | 78 => ⟨S1000x128, .f32⟩
  | 79 => ⟨S1000x128, .f32⟩
  | 80 => ⟨S1000x1, .f32⟩
  | 81 => ⟨S1x1, .f32⟩
  | 82 => ⟨S1000x1, .f32⟩
  | 83 => ⟨S1000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call1_cst : Ref sig .tc := ⟨.hbm, 46, rfl⟩
abbrev main_call1_v0 : Ref sig .tc := ⟨.hbm, 47, rfl⟩
abbrev main_v32 : Ref sig .tc := ⟨.hbm, 48, rfl⟩
abbrev main_c_1 : Ref sig .tc := ⟨.hbm, 49, rfl⟩
abbrev main_v33 : Ref sig .tc := ⟨.hbm, 50, rfl⟩
abbrev main_v34 : Ref sig .tc := ⟨.hbm, 51, rfl⟩
abbrev main_c_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call2_cst : Ref sig .tc := ⟨.hbm, 71, rfl⟩
abbrev main_call2_v0 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_call3_cst : Ref sig .tc := ⟨.hbm, 82, rfl⟩
abbrev main_call3_v0 : Ref sig .tc := ⟨.hbm, 83, rfl⟩
abbrev main_v61 : Ref sig .tc := ⟨.hbm, 84, rfl⟩
abbrev main_c_4 : Ref sig .tc := ⟨.hbm, 85, rfl⟩
abbrev main_v62 : Ref sig .tc := ⟨.hbm, 86, rfl⟩
abbrev main_v63 : Ref sig .tc := ⟨.hbm, 87, rfl⟩
abbrev main_c_5 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_call4_cst : Ref sig .tc := ⟨.hbm, 107, rfl⟩
abbrev main_call4_v0 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_call5_cst : Ref sig .tc := ⟨.hbm, 118, rfl⟩
abbrev main_call5_v0 : Ref sig .tc := ⟨.hbm, 119, rfl⟩
abbrev main_v90 : Ref sig .tc := ⟨.hbm, 120, rfl⟩
abbrev main_c_7 : Ref sig .tc := ⟨.hbm, 121, rfl⟩
abbrev main_v91 : Ref sig .tc := ⟨.hbm, 122, rfl⟩
abbrev main_v92 : Ref sig .tc := ⟨.hbm, 123, rfl⟩
abbrev main_c_8 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_9 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_call6_cst : Ref sig .tc := ⟨.hbm, 143, rfl⟩
abbrev main_call6_v0 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_call7_cst : Ref sig .tc := ⟨.hbm, 154, rfl⟩
abbrev main_call7_v0 : Ref sig .tc := ⟨.hbm, 155, rfl⟩
abbrev main_v119 : Ref sig .tc := ⟨.hbm, 156, rfl⟩
abbrev main_c_10 : Ref sig .tc := ⟨.hbm, 157, rfl⟩
abbrev main_v120 : Ref sig .tc := ⟨.hbm, 158, rfl⟩
abbrev main_v121 : Ref sig .tc := ⟨.hbm, 159, rfl⟩
abbrev main_c_11 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_12 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_call8_cst : Ref sig .tc := ⟨.hbm, 179, rfl⟩
abbrev main_call8_v0 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_call9_cst : Ref sig .tc := ⟨.hbm, 190, rfl⟩
abbrev main_call9_v0 : Ref sig .tc := ⟨.hbm, 191, rfl⟩
abbrev main_v148 : Ref sig .tc := ⟨.hbm, 192, rfl⟩
abbrev main_cst_13 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_cst_14 : Ref sig .tc := ⟨.hbm, 197, rfl⟩
abbrev main_v152 : Ref sig .tc := ⟨.hbm, 198, rfl⟩
abbrev main_cst_15 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_16 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S1000x128 : S_.BroadcastsInDim S1000x128 (![] : Fin 0 → Fin S1000x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S1000x128_S50000x1_S50000x128_1_0_0_1_wf : ScatterDims.WF S1000x128 S50000x1 S50000x128 [1] [0] [0] 1
  scatter_S1000x1_S50000x1_S50000x1_1_0_0_1_wf : ScatterDims.WF S1000x1 S50000x1 S50000x1 [1] [0] [0] 1
  dot_S1000x128_S128x1_S1000x1_1_0_0_1_n_n_wf : DotDims.WF S1000x128 S128x1 S1000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000x1_S50000x1_S50000x1_1_0_0_1 : ScatterDims S1000x1 S50000x1 S50000x1 where
  updateWindowDims := [1]
  insertedWindowDims := [0]
  scatterDimsToOperandDims := [0]
  indexVectorDim := 1
  wf := scatter_S1000x1_S50000x1_S50000x1_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

class Facts : Prop extends Facts₀ where

variable [Facts]
-- ==== Proof.KernelRun.lean ====
/-
  The idealized kernel program's run, with its result kept.

  @main is eleven segments: six stretches of host operations and, between them, the five layer kernels. Running
  it from any memory, every weakly fair execution terminates without a fault, and at the end every buffer that
  outlives the regions holds what the fold of the segments leaves there: the last boundary's contents. The
  arguments are read back to their launch contents (no segment writes one); the result buffer is kept here at the
  last boundary's contents, for the value to be read off the fold afterwards.
-/
import proofs.«173616_j21191368639148_1_alg».proof.Proof.Gen.KernelIdeal.Frame

set_option maxRecDepth 16384

noncomputable section

namespace Cert.Gin.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the
    argument arrays as launched. -/
theorem run_result : θ_run defs (onTc (τ := τ) (main (F := F))) ⟨m, fun _ => 0, ρ⟩ (fun r => ∀ c : Dev nD,
      r.2.mem ((c.tc : Thread nD τ).loc main_v123) = W11 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v123 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.Gin.Run

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.Mlp.lean ====
/-
  One node of a graph-isomorphism layer, and the two programs' arithmetic for it read at an entry.

  A layer replaces every node's feature row z = h + aggr (128 numbers) by
      relu(relu(z · W1 + b1) · W2 + b2),
  two dense 128 × 128 products with a bias and a clamp at zero after each. `node` is entry q of that row over the
  extended reals. The kernel computes it on a block of rows: it narrows the operands of each product to sixteen bits
  (no change at the ideal values), multiplies into a zero accumulator (the accumulator adds nothing), and spreads
  a bias handed to it as one row [1, 128]. The host computes it on the whole array with dot_general and spreads the
  bias vector [128] by setting it as a row and spreading the row. Read at entry (p, q) both are `node` of row p:
  each product is the sum over the contracted axis, the spread bias is its entry q, the clamp is max with zero.
  No finiteness is used: the two sides are the same expression, not rearrangements of one another.
-/
import Idealize.ShloMosaic.PureOps.Ideal.Laws
import Idealize.ShloMosaic.Lib.ValueIdx
import Idealize.ShloMosaic.Lib.ValueLayout
import Idealize.ShloMosaic.Lib.Pipeline.Value
import proofs.«173616_j21191368639148_1_alg».proof.Proof.LibPlainDot
import proofs.«173616_j21191368639148_1_alg».proof.Proof.LibBroadcastInDim

noncomputable section

namespace Cert.Gin

open Idealize.ShloMosaic Idealize.ShloMosaic.ValueIdx

/-- Entry q of relu(relu(z · W1 + b1) · W2 + b2) for one feature row z. -/
def node (z : Fin 128 → EReal) (w1 : Fin 128 → Fin 128 → EReal) (b1 : Fin 128 → EReal)
    (w2 : Fin 128 → Fin 128 → EReal) (b2 : Fin 128 → EReal) (q : Fin 128) : EReal :=
  max ((∑ k : Fin 128, max ((∑ j : Fin 128, z j * w1 j k) + b1 k) 0 * w2 k q) + b2 q) 0

/-- The layer applied to every row of an [n, 128] array of features h with aggregated neighbours a. -/
def layerOut {n : ℕ} (h a : (⟨2, ![n, 128]⟩ : Shape).Idx → EReal) (w1 : (⟨2, ![128, 128]⟩ : Shape).Idx → EReal)
    (b1 : Fin 128 → EReal) (w2 : (⟨2, ![128, 128]⟩ : Shape).Idx → EReal) (b2 : Fin 128 → EReal) :
    (⟨2, ![n, 128]⟩ : Shape).Idx → EReal :=
  fun i => node (fun j => h (ix2 (i 0) j) + a (ix2 (i 0) j)) (fun j k => w1 (ix2 j k)) b1 (fun k g => w2 (ix2 k g)) b2 (i 1)

/-- The float zero word is the real zero. -/
theorem zero_word : (Scalar.ofBits (F := Ideal) .f32 0x00000000#32 : Ideal .f32) = 0 := Ideal.ofBits_zero_f32

/-- The kernel's arithmetic on a block of R rows, at entry (p, q): `node` of the block's row p, the biases read
    from their one row. -/
theorem kernel_entry {R : ℕ} (x a : FVec Ideal ⟨2, ![R, 128]⟩ .f32) (w1 w2 : FVec Ideal ⟨2, ![128, 128]⟩ .f32)
    (b1 b2 : FVec Ideal ⟨2, ![1, 128]⟩ .f32)
    (d : DotDims ⟨2, ![R, 128]⟩ ⟨2, ![128, 128]⟩ ⟨2, ![R, 128]⟩) (hd : d = DotDims.plain R 128 128)
    (hb : (⟨2, ![1, 128]⟩ : Shape).Broadcasts ⟨2, ![R, 128]⟩) (hlt : FTy.bits .bf16 < FTy.bits .f32)
    (p : Fin R) (q : Fin 128) :
    maximumf (addf (matmul d none
        (truncf .bf16 (maximumf (addf (matmul d none (truncf .bf16 (addf x a) hlt) (truncf .bf16 w1 hlt)
            (constant ⟨2, ![R, 128]⟩ .f32 0x00000000#32)) (broadcastTo ⟨2, ![R, 128]⟩ b1 hb))
          (broadcast ⟨2, ![R, 128]⟩ (Scalar.ofBits .f32 0x00000000#32))) hlt)
        (truncf .bf16 w2 hlt) (constant ⟨2, ![R, 128]⟩ .f32 0x00000000#32)) (broadcastTo ⟨2, ![R, 128]⟩ b2 hb))
      (broadcast ⟨2, ![R, 128]⟩ (Scalar.ofBits .f32 0x00000000#32)) (ix2 p q)
    = node (fun j => x (ix2 p j) + a (ix2 p j)) (fun j k => w1 (ix2 j k)) (fun k => b1 (ix2 (0 : Fin 1) k))
        (fun k g => w2 (ix2 k g)) (fun g => b2 (ix2 (0 : Fin 1) g)) q := by
  rw [maximumf_apply, addf_apply, Cert.PlainDot.matmul_zero_apply d hd, broadcastTo_1b_ab_apply, broadcast_apply, zero_word]
  unfold node
  refine congrArg (fun s => max (s + b2 (ix2 (0 : Fin 1) q)) 0) (Finset.sum_congr rfl fun k _ => ?_)
  rw [truncf_apply, truncf_apply, maximumf_apply, addf_apply, Cert.PlainDot.matmul_zero_apply d hd, broadcastTo_1b_ab_apply,
    broadcast_apply]
  refine congrArg (fun s => max (s + b1 (ix2 (0 : Fin 1) k)) 0 * w2 (ix2 k q)) (Finset.sum_congr rfl fun j _ => ?_)
  rw [truncf_apply, truncf_apply, addf_apply]

/-- The zero splat of a host program at any entry is zero. -/
theorem host_zero_entry {s : Shape} (h0 : (⟨0, ![]⟩ : Shape).BroadcastsInDim s ![]) (i : s.Idx) :
    broadcastInDim s ![] h0 (constant (F := Ideal) ⟨0, ![]⟩ .f32 0x00000000#32) i = 0 :=
  (broadcastInDim_apply _ h0 _ i ix0 (fun a => a.elim0)).trans Ideal.ofBits_zero_f32

/-- The host's arithmetic on the whole [n, 128] array, at entry (p, q): `node` of row p, the biases read from
    their vectors. -/
theorem host_entry {n : ℕ} (x a : FVec Ideal ⟨2, ![n, 128]⟩ .f32) (w1 w2 : FVec Ideal ⟨2, ![128, 128]⟩ .f32)
    (b1 b2 : FVec Ideal ⟨1, ![128]⟩ .f32)
    (d : DotDims ⟨2, ![n, 128]⟩ ⟨2, ![128, 128]⟩ ⟨2, ![n, 128]⟩) (hd : d = DotDims.plain n 128 128)
    (h3 : (⟨2, ![1, 128]⟩ : Shape).BroadcastsInDim ⟨2, ![n, 128]⟩ ![0, 1])
    (h4 : (⟨1, ![128]⟩ : Shape).BroadcastsInDim ⟨2, ![1, 128]⟩ ![1])
    (h0 : (⟨0, ![]⟩ : Shape).BroadcastsInDim ⟨2, ![n, 128]⟩ ![]) (p : Fin n) (q : Fin 128) :
    maximumf (addf (Host.dotGeneral d none
        (maximumf (addf (Host.dotGeneral d none (addf x a) w1)
            (broadcastInDim ⟨2, ![n, 128]⟩ ![0, 1] h3 (broadcastInDim ⟨2, ![1, 128]⟩ ![1] h4 b1)))
          (broadcastInDim ⟨2, ![n, 128]⟩ ![] h0 (constant ⟨0, ![]⟩ .f32 0x00000000#32)))
        w2) (broadcastInDim ⟨2, ![n, 128]⟩ ![0, 1] h3 (broadcastInDim ⟨2, ![1, 128]⟩ ![1] h4 b2)))
      (broadcastInDim ⟨2, ![n, 128]⟩ ![] h0 (constant ⟨0, ![]⟩ .f32 0x00000000#32)) (ix2 p q)
    = node (fun j => x (ix2 p j) + a (ix2 p j)) (fun j k => w1 (ix2 j k)) (fun k => b1 (ix1 k))
        (fun k g => w2 (ix2 k g)) (fun g => b2 (ix1 g)) q := by
  rw [maximumf_apply, addf_apply, Cert.PlainDot.hostDot_apply d hd, Cert.Lib.InDim.row_spread, Cert.Lib.InDim.vec_as_row,
    host_zero_entry]
  unfold node
  refine congrArg (fun s => max (s + b2 (ix1 q)) 0) (Finset.sum_congr rfl fun k _ => ?_)
  rw [maximumf_apply, addf_apply, Cert.PlainDot.hostDot_apply d hd, Cert.Lib.InDim.row_spread, Cert.Lib.InDim.vec_as_row,
    host_zero_entry]
  refine congrArg (fun s => max (s + b1 (ix1 k)) 0 * w2 (ix2 k q)) (Finset.sum_congr rfl fun j _ => ?_)
  rw [addf_apply]

end Cert.Gin

end
-- ==== Proof.Terms.lean ====
/-
  The host-side pieces that the kernel program and the reference share, written once.

  Both programs slice the edge list into sources and targets, and in every layer gather the source rows of the
  current features, add them up per target node (a segment sum over the edges), slice the layer's weights and
  biases out of the stacked arrays, and after the last layer pool the node features per graph, divide by the graph
  sizes and apply the read-out. These are the same operations in both programs; they are named here so that neither
  side's proof opens them: the two programs differ only in how a layer's dense arithmetic is computed.
-/
import proofs.«173616_j21191368639148_1_alg».proof.KernelIdeal
import proofs.«173616_j21191368639148_1_alg».proof.Proof.Gen.KernelIdeal
import proofs.«173616_j21191368639148_1_alg».proof.Proof.Mlp

noncomputable section

namespace Cert.Gin

open Cert.KernelIdeal Cert.KernelIdeal.Facts₀ Cert.KernelIdeal.Facts Idealize.ShloMosaic Idealize.ShloMosaic.ValueIdx

/-- The edges' source nodes: row 0 of the [2, E] edge list. -/
def src (e : IVec S2x800000 32) : IVec S800000 32 :=
  shapeCast _ (extractStridedSlice S1x800000 ![0, 0] e slices_S2x800000_S1x800000_0_0) shapeCasts_S1x800000_S800000
/-- The edges' target nodes: row 1 of the edge list. -/
def dst (e : IVec S2x800000 32) : IVec S800000 32 :=
  shapeCast _ (extractStridedSlice S1x800000 ![1, 0] e slices_S2x800000_S1x800000_1_0) shapeCasts_S1x800000_S800000

/-- The neighbourhood sum: row `dst e` of the result collects row `src e` of h over all edges e (a negative source
    index counted from the end, as jnp indexing does). -/
def agg (h : FVec Ideal S50000x128 .f32) (s d : IVec S800000 32) :
    FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- Layer 0's weight matrix: slab 0 of the stacked [5, 128, 128] weights. -/
def wmat0 (W : FVec Ideal S5x128x128 .f32) : FVec Ideal S128x128 .f32 :=
  shapeCast _ (extractStridedSlice S1x128x128 ![0, 0, 0] W slices_S5x128x128_S1x128x128_0_0_0) shapeCasts_S1x128x128_S128x128
/-- Layer 0's bias vector: row 0 of the stacked [5, 128] biases. -/
def bvec0 (B : FVec Ideal S5x128 .f32) : FVec Ideal S128 .f32 :=
  shapeCast _ (extractStridedSlice S1x128 ![0, 0] B slices_S5x128_S1x128_0_0) shapeCasts_S1x128_S128
/-- Layer 1's weight matrix: slab 1 of the stacked [5, 128, 128] weights. -/
def wmat1 (W : FVec Ideal S5x128x128 .f32) : FVec Ideal S128x128 .f32 :=
  shapeCast _ (extractStridedSlice S1x128x128 ![1, 0, 0] W slices_S5x128x128_S1x128x128_1_0_0) shapeCasts_S1x128x128_S128x128
/-- Layer 1's bias vector: row 1 of the stacked [5, 128] biases. -/
def bvec1 (B : FVec Ideal S5x128 .f32) : FVec Ideal S128 .f32 :=
  shapeCast _ (extractStridedSlice S1x128 ![1, 0] B slices_S5x128_S1x128_1_0) shapeCasts_S1x128_S128
/-- Layer 2's weight matrix: slab 2 of the stacked [5, 128, 128] weights. -/
def wmat2 (W : FVec Ideal S5x128x128 .f32) : FVec Ideal S128x128 .f32 :=
  shapeCast _ (extractStridedSlice S1x128x128 ![2, 0, 0] W slices_S5x128x128_S1x128x128_2_0_0) shapeCasts_S1x128x128_S128x128
/-- Layer 2's bias vector: row 2 of the stacked [5, 128] biases. -/
def bvec2 (B : FVec Ideal S5x128 .f32) : FVec Ideal S128 .f32 :=
  shapeCast _ (extractStridedSlice S1x128 ![2, 0] B slices_S5x128_S1x128_2_0) shapeCasts_S1x128_S128
/-- Layer 3's weight matrix: slab 3 of the stacked [5, 128, 128] weights. -/
def wmat3 (W : FVec Ideal S5x128x128 .f32) : FVec Ideal S128x128 .f32 :=
  shapeCast _ (extractStridedSlice S1x128x128 ![3, 0, 0] W slices_S5x128x128_S1x128x128_3_0_0) shapeCasts_S1x128x128_S128x128
/-- Layer 3's bias vector: row 3 of the stacked [5, 128] biases. -/
def bvec3 (B : FVec Ideal S5x128 .f32) : FVec Ideal S128 .f32 :=
  shapeCast _ (extractStridedSlice S1x128 ![3, 0] B slices_S5x128_S1x128_3_0) shapeCasts_S1x128_S128
/-- Layer 4's weight matrix: slab 4 of the stacked [5, 128, 128] weights. -/
def wmat4 (W : FVec Ideal S5x128x128 .f32) : FVec Ideal S128x128 .f32 :=
  shapeCast _ (extractStridedSlice S1x128x128 ![4, 0, 0] W slices_S5x128x128_S1x128x128_4_0_0) shapeCasts_S1x128x128_S128x128
/-- Layer 4's bias vector: row 4 of the stacked [5, 128] biases. -/
def bvec4 (B : FVec Ideal S5x128 .f32) : FVec Ideal S128 .f32 :=
  shapeCast _ (extractStridedSlice S1x128 ![4, 0] B slices_S5x128_S1x128_4_0) shapeCasts_S1x128_S128

/-- A bias vector handed to the kernel as one row [1, 128]. -/
def brow (b : FVec Ideal S128 .f32) : FVec Ideal S1x128 .f32 :=
  shapeCast _ b shapeCasts_S128_S1x128

/-- The read-out: per-graph mean of the node features (sum per graph over the node-to-graph map, divided by the
    graph's node count clamped below at one), times the read-out weights, plus the read-out bias. -/
def readout (h : FVec Ideal S50000x128 .f32) (batch : IVec S50000 32)
    (wh : FVec Ideal S128x1 .f32) (bh : FVec Ideal S1 .f32) :
    FVec Ideal S1000x1 .f32 :=
  addf (F := Ideal) (Host.dotGeneral (F := Ideal) dot_S1000x128_S128x1_S1000x1_1_0_0_1_n_n none
      (Host.divf (F := Ideal)
        (Host.scatterAdd (F := Ideal) scatter_S1000x128_S50000x1_S50000x128_1_0_0_1
          (broadcastInDim S1000x128 ![] bcast_S_S1000x128 (constant (F := Ideal) S_ .f32 0x00000000#32))
          (broadcastInDim S50000x1 ![0] bcast_S50000_S50000x1_0 batch) h)
        (broadcastInDim S1000x128 ![0, 1] bcast_S1000x1_S1000x128_0_1
          (maximumf (F := Ideal)
            (Host.scatterAdd (F := Ideal) scatter_S1000x1_S50000x1_S50000x1_1_0_0_1
              (broadcastInDim S1000x1 ![] bcast_S_S1000x1 (constant (F := Ideal) S_ .f32 0x00000000#32))
              (broadcastInDim S50000x1 ![0] bcast_S50000_S50000x1_0 batch)
              (broadcastInDim S50000x1 ![] bcast_S_S50000x1 (constant (F := Ideal) S_ .f32 0x3F800000#32)))
            (broadcastInDim S1000x1 ![] bcast_S_S1000x1 (constant (F := Ideal) S_ .f32 0x3F800000#32)))))
      wh)
    (broadcastInDim S1000x1 ![0, 1] bcast_S1x1_S1000x1_0_1 (broadcastInDim S1x1 ![1] bcast_S1_S1x1_1 bh))

/-- One layer on the whole node array: the dense arithmetic of every row of h + (neighbourhood sum of h). -/
def layer (h : FVec Ideal S50000x128 .f32) (s d : IVec S800000 32)
    (w1 : FVec Ideal S128x128 .f32) (b1 : FVec Ideal S128 .f32)
    (w2 : FVec Ideal S128x128 .f32) (b2 : FVec Ideal S128 .f32) :
    FVec Ideal S50000x128 .f32 :=
  layerOut (n := 50000) h (agg h s d) w1 (fun k => b1 (ix1 k)) w2 (fun k => b2 (ix1 k))

/-- The whole network: five layers from the input features, then the read-out. -/
def network (x : FVec Ideal S50000x128 .f32) (e : IVec S2x800000 32)
    (batch : IVec S50000 32)
    (W1 : FVec Ideal S5x128x128 .f32) (B1 : FVec Ideal S5x128 .f32)
    (W2 : FVec Ideal S5x128x128 .f32) (B2 : FVec Ideal S5x128 .f32)
    (wh : FVec Ideal S128x1 .f32) (bh : FVec Ideal S1 .f32) :
    FVec Ideal S1000x1 .f32 :=
  readout
    (layer (layer (layer (layer (layer x (src e) (dst e) (wmat0 W1) (bvec0 B1) (wmat0 W2) (bvec0 B2))
      (src e) (dst e) (wmat1 W1) (bvec1 B1) (wmat1 W2) (bvec1 B2))
      (src e) (dst e) (wmat2 W1) (bvec2 B1) (wmat2 W2) (bvec2 B2))
      (src e) (dst e) (wmat3 W1) (bvec3 B1) (wmat3 W2) (bvec3 B2))
      (src e) (dst e) (wmat4 W1) (bvec4 B1) (wmat4 W2) (bvec4 B2))
    batch wh bh

end Cert.Gin

end
-- ==== Proof.Fold.lean ====
/-
  What the kernel program carries from segment to segment.

  After the first stretch of host operations two buffers hold the edges' sources and targets, and they, together
  with the arguments the later segments still read (the node-to-graph map, the stacked weights and biases, the
  read-out weights and bias), are written by no later segment: every later boundary finds them unchanged.
-/
import proofs.«173616_j21191368639148_1_alg».proof.Proof.Gen.KernelIdeal.Frame
import proofs.«173616_j21191368639148_1_alg».proof.Proof.Terms
import Idealize.ShloMosaic.Lib.StableHlo.Run

set_option maxRecDepth 16384

noncomputable section

namespace Cert.Gin.Fold

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Cert.Gin

variable (m : (ℓ : Loc nD τ sig) → Buf (Elt Ideal) ℓ) (c : Dev nD)

/-- A boundary's contents that still hold the edges' sources and targets and the arguments read later. -/
structure Carry (W : Valuation τ sig (Elt Ideal)) : Prop where
  s : W (Proc.devRef .tc main_v1) = src (m ((c.tc : Thread nD τ).loc main_arg1))
  d : W (Proc.devRef .tc main_v3) = dst (m ((c.tc : Thread nD τ).loc main_arg1))
  a2 : W (Proc.devRef .tc main_arg2) = (m ((c.tc : Thread nD τ).loc main_arg2))
  a3 : W (Proc.devRef .tc main_arg3) = (m ((c.tc : Thread nD τ).loc main_arg3))
  a4 : W (Proc.devRef .tc main_arg4) = (m ((c.tc : Thread nD τ).loc main_arg4))
  a5 : W (Proc.devRef .tc main_arg5) = (m ((c.tc : Thread nD τ).loc main_arg5))
  a6 : W (Proc.devRef .tc main_arg6) = (m ((c.tc : Thread nD τ).loc main_arg6))
  a7 : W (Proc.devRef .tc main_arg7) = (m ((c.tc : Thread nD τ).loc main_arg7))
  a8 : W (Proc.devRef .tc main_arg8) = (m ((c.tc : Thread nD τ).loc main_arg8))

/-- A bias vector set as one row, read at its entry k, is the vector's entry k. -/
theorem brow_entry (b : (⟨S128, .f32⟩ : BufTy).Contents (Elt Ideal)) :
    (fun k : Fin 128 => brow b (ix2 (0 : Fin 1) k)) = fun k => b (ix1 k) :=
  funext fun k => shapeCast_a_1a_apply b Cert.KernelIdeal.Facts₀.shapeCasts_S128_S1x128 (0 : Fin 1) k

end Cert.Gin.Fold

end
-- ==== Proof.Region0.lean ====
/-
  Layer kernel 0, read as one function of the arrays it finds.

  The kernel runs on ten blocks of 5000 node rows. At block t it is handed rows 5000 t … 5000 t + 4999 of the
  features and of the neighbourhood sums, and the whole weight matrices and bias rows; it writes the same rows of
  its output. Each output entry depends only on its own row of the two node arrays, so block t of the output is
  block t of the layer applied to the whole arrays, and the ten blocks tile the 50000 rows: after the region the
  output array is the layer of the arrays as the region found them.
-/
import proofs.«173616_j21191368639148_1_alg».proof.Proof.Gen.KernelIdeal.Frame
import proofs.«173616_j21191368639148_1_alg».proof.Proof.Mlp
import Idealize.ShloMosaic.Lib.Pipeline.Value
import Idealize.ShloMosaic.Lib.ValueIdx

set_option maxRecDepth 16384

noncomputable section

namespace Cert.Gin.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.Gin

variable (V : (c : Dev nD) → (b : Ref sig .tc) → Buf (Elt Ideal) ((c : Thread nD τ).loc b))

theorem origin : (![0, 0] : Fin 2 → Nat) = fun _ => 0 := funext fun a => by fin_cases a <;> rfl

/-- The body's stored value at entry (p, q) of a block: the node update of the block's row p. -/
theorem payload_entry (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay1 (F := Ideal) x0 x1 x2 x3 x4 x5 (ix2 p q)
      = node (fun j => x0 (ix2 p j) + x1 (ix2 p j)) (fun j g => x2 (ix2 j g)) (fun g => x3 (ix2 (0 : Fin 1) g))
          (fun j g => x4 (ix2 j g)) (fun g => x5 (ix2 (0 : Fin 1) g)) q := by
  unfold k0_pay1
  simp only [shapeCast_self]
  exact kernel_entry x0 x1 x2 x4 x3 x5 dot_S5000x128_S128x128_S5000x128_1_0_0_1_n_n rfl
    Cert.KernelIdeal.Facts₀.broadcasts_S1x128_S5000x128 Cert.KernelIdeal.Facts₀.bitsLt_bf16_f32 p q

/-- The arrays the region finds, as functions of their indices: the features, the neighbourhood sums, the two weight
    matrices and the two bias rows. -/
abbrev aH (c : Dev nD) : S50000x128.Idx → EReal := V c main_arg0
abbrev aA (c : Dev nD) : S50000x128.Idx → EReal := V c main_v13
abbrev aW1 (c : Dev nD) : S128x128.Idx → EReal := V c main_v15
abbrev aB1 (c : Dev nD) : S1x128.Idx → EReal := V c main_v22
abbrev aW2 (c : Dev nD) : S128x128.Idx → EReal := V c main_v19
abbrev aB2 (c : Dev nD) : S1x128.Idx → EReal := V c main_v23

/-- The windows' block indices over the grid: the two node arrays and the output move together, one block of rows
    per point; the weights and biases stay at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

set_option maxHeartbeats 400000 in
/-- What point t writes back is block t of the layer of the arrays as found: entry (p, q) of the block is the node
    update of row p of the point's blocks, which are rows 5000 t + p of the node arrays and the whole weights. -/
theorem flushed_eq (c : Dev nD) (t : Fin cfg0.N) :
    (dat0 (F := Ideal) V c).flushed 6 t = ((cfg0.win 6).blk t).view.read (Elt Ideal) (layerOut (n := 50000) (aH V c) (aA V c) (aW1 V c) (fun k => aB1 V c (ix2 (0 : Fin 1) k)) (aW2 V c) (fun k => aB2 V c (ix2 (0 : Fin 1) k))) := by
  show (cfg0.win 6).cut (grid0.coords t) ((dat0 V c).after 6 t) = _
  rw [after0_6]
  unfold out0_6
  rw [View.canon_unit_zero origin]
  simp only [View.ld_unit_zero (S := S5000x128) origin, View.ld_unit_zero (S := S128x128) origin,
    View.ld_unit_zero (S := S1x128) origin]
  obtain ⟨e00, e01, e10, e11, e20, e21, e30, e31, e40, e41, e50, e51, e60, e61⟩ := block_indices t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q) = _
  rw [View.read_apply]
  refine (payload_entry (iblk0 V c 0 t) (iblk0 V c 1 t) (iblk0 V c 2 t) (iblk0 V c 3 t) (iblk0 V c 4 t)
    (iblk0 V c 5 t) p q).trans ?_
  unfold layerOut iblk0
  simp only [View.read_apply]
  simp only [cast_eq]
  have h0 : ∀ j : Fin 128, ((View.whole main_arg0).slice ((win0 0).rect t)).emb (ix2 p j) = ix2 (((View.whole main_v24).slice ((win0 6).rect t)).emb (ix2 p q) 0) j :=
    fun j => funext fun a => Fin.ext (by
      match a with
      | ⟨0, _⟩ => show win0_0.index t (0 : Fin 2) * 5000 + 1 * p.val = win0_6.index t (0 : Fin 2) * 5000 + 1 * p.val; omega
      | ⟨1, _⟩ => show win0_0.index t (1 : Fin 2) * 128 + 1 * j.val = j.val; omega)
  have h1 : ∀ j : Fin 128, ((View.whole main_v13).slice ((win0 1).rect t)).emb (ix2 p j) = ix2 (((View.whole main_v24).slice ((win0 6).rect t)).emb (ix2 p q) 0) j :=
    fun j => funext fun a => Fin.ext (by
      match a with
      | ⟨0, _⟩ => show win0_1.index t (0 : Fin 2) * 5000 + 1 * p.val = win0_6.index t (0 : Fin 2) * 5000 + 1 * p.val; omega
      | ⟨1, _⟩ => show win0_1.index t (1 : Fin 2) * 128 + 1 * j.val = j.val; omega)
  have h2 : ∀ (j g : Fin 128), ((View.whole main_v15).slice ((win0 2).rect t)).emb (ix2 j g) = ix2 j g :=
    fun j g => funext fun a => Fin.ext (by
      match a with
      | ⟨0, _⟩ => show win0_2.index t (0 : Fin 2) * 128 + 1 * j.val = j.val; omega
      | ⟨1, _⟩ => show win0_2.index t (1 : Fin 2) * 128 + 1 * g.val = g.val; omega)
  have h3 : ∀ g : Fin 128, ((View.whole main_v22).slice ((win0 3).rect t)).emb (ix2 (0 : Fin 1) g) = ix2 (0 : Fin 1) g :=
    fun g => funext fun a => Fin.ext (by
      match a with
      | ⟨0, _⟩ => show win0_3.index t (0 : Fin 2) * 1 + 1 * 0 = 0; omega
      | ⟨1, _⟩ => show win0_3.index t (1 : Fin 2) * 128 + 1 * g.val = g.val; omega)
  have h4 : ∀ (j g : Fin 128), ((View.whole main_v19).slice ((win0 4).rect t)).emb (ix2 j g) = ix2 j g :=
    fun j g => funext fun a => Fin.ext (by
      match a with
      | ⟨0, _⟩ => show win0_4.index t (0 : Fin 2) * 128 + 1 * j.val = j.val; omega
      | ⟨1, _⟩ => show win0_4.index t (1 : Fin 2) * 128 + 1 * g.val = g.val; omega)
  have h5 : ∀ g : Fin 128, ((View.whole main_v23).slice ((win0 5).rect t)).emb (ix2 (0 : Fin 1) g) = ix2 (0 : Fin 1) g :=
    fun g => funext fun a => Fin.ext (by
      match a with
      | ⟨0, _⟩ => show win0_5.index t (0 : Fin 2) * 1 + 1 * 0 = 0; omega
      | ⟨1, _⟩ => show win0_5.index t (1 : Fin 2) * 128 + 1 * g.val = g.val; omega)
  have hcol : ((View.whole main_v24).slice ((win0 6).rect t)).emb (ix2 p q) 1 = q := Fin.ext (by
    show win0_6.index t (1 : Fin 2) * 128 + 1 * q.val = q.val; omega)
  simp only [h0, h1, h2, h3, h4, h5, hcol]
  rfl

/-- An index of the output array lies in point t's block iff its row is among the block's 5000 rows. -/
theorem mem_block (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24).slice (win0_6.rect t)).set ↔ _
  rw [View.set_slice_whole, Rect.mem_set_unit]
  exact Iff.rfl

/-- Every index of the output array is in the block of the point its row falls in. -/
theorem covered (i : S50000x128.Idx) :
    ∃ t : Fin cfg0.N, (cfg0.win 6).flush t = true ∧ i ∈ ((cfg0.win 6).blk t).view.set := by
  have hN : grid0.N = 10 := N_0
  have hi0 : (i 0).val < 50000 := (i 0).isLt
  have hi1 : (i 1).val < 128 := (i 1).isLt
  have hlt : (i 0).val / 5000 < grid0.N := by rw [hN]; omega
  obtain ⟨e00, e01, e10, e11, e20, e21, e30, e31, e40, e41, e50, e51, e60, e61⟩ := block_indices ⟨(i 0).val / 5000, hlt⟩
  have e60' : win0_6.index ⟨(i 0).val / 5000, hlt⟩ (0 : Fin 2) = (i 0).val / 5000 := e60
  refine ⟨⟨(i 0).val / 5000, hlt⟩, flush0_6 _, ?_⟩
  rw [mem_block]
  intro a
  match a with
  | ⟨0, _⟩ => show win0_6.index ⟨(i 0).val / 5000, hlt⟩ (0 : Fin 2) * 5000 ≤ (i 0).val ∧ (i 0).val < win0_6.index ⟨(i 0).val / 5000, hlt⟩ (0 : Fin 2) * 5000 + 5000; omega
  | ⟨1, _⟩ => show win0_6.index ⟨(i 0).val / 5000, hlt⟩ (1 : Fin 2) * 128 ≤ (i 1).val ∧ (i 1).val < win0_6.index ⟨(i 0).val / 5000, hlt⟩ (1 : Fin 2) * 128 + 128; omega

/-- After the region its output array is the layer of the arrays as the region found them. -/
theorem out_eq (c : Dev nD) :
    (dat0 (F := Ideal) V c).arrAt 6 cfg0.N = (layerOut (n := 50000) (aH V c) (aA V c) (aW1 V c) (fun k => aB1 V c (ix2 (0 : Fin 1) k)) (aW2 V c) (fun k => aB2 V c (ix2 (0 : Fin 1) k))) :=
  (dat0 (F := Ideal) V c).arrAt_eq_of_cover 6 _ (fun t _ => flushed_eq V c t) covered

end Cert.Gin.Region0

end
-- ==== Proof.Host0.lean ====
/-
  The stretch of host operations before layer kernel 0, from any contents: what it leaves in the kernel's operand
  buffers, and which buffers it does not touch.
-/
import proofs.«173616_j21191368639148_1_alg».proof.Proof.Gen.KernelIdeal.Frame
import proofs.«173616_j21191368639148_1_alg».proof.Proof.Terms
import Idealize.ShloMosaic.Lib.StableHlo.Run

set_option maxRecDepth 16384

noncomputable section

namespace Cert.Gin.Host0

open Cert.KernelIdeal Cert.KernelIdeal.Gen
open Idealize.ShloMosaic Idealize.ShloMosaic.TcCoe Idealize.ShloMosaic.ValueIdx Idealize.SL.Sem Idealize.ShloMosaic.StableHlo
open Cert.Gin

variable (W : Valuation τ sig (Elt Ideal))

/-- No operation of the stretch writes this buffer. -/
theorem kept_main_arg0 : StableHlo.after (hostOps0 (F := Ideal)) W (Proc.devRef .tc main_arg0) = (W (Proc.devRef .tc main_arg0)) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg2 : StableHlo.after (hostOps0 (F := Ideal)) W (Proc.devRef .tc main_arg2) = (W (Proc.devRef .tc main_arg2)) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg3 : StableHlo.after (hostOps0 (F := Ideal)) W (Proc.devRef .tc main_arg3) = (W (Proc.devRef .tc main_arg3)) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg4 : StableHlo.after (hostOps0 (F := Ideal)) W (Proc.devRef .tc main_arg4) = (W (Proc.devRef .tc main_arg4)) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg5 : StableHlo.after (hostOps0 (F := Ideal)) W (Proc.devRef .tc main_arg5) = (W (Proc.devRef .tc main_arg5)) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg6 : StableHlo.after (hostOps0 (F := Ideal)) W (Proc.devRef .tc main_arg6) = (W (Proc.devRef .tc main_arg6)) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg7 : StableHlo.after (hostOps0 (F := Ideal)) W (Proc.devRef .tc main_arg7) = (W (Proc.devRef .tc main_arg7)) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg8 : StableHlo.after (hostOps0 (F := Ideal)) W (Proc.devRef .tc main_arg8) = (W (Proc.devRef .tc main_arg8)) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- The stretch leaves the edges' sources in their buffer. -/
theorem srcs : StableHlo.after (hostOps0 (F := Ideal)) W (Proc.devRef .tc main_v1) = src (W (Proc.devRef .tc main_arg1)) := by
  after_results_simp <;> rfl

set_option maxHeartbeats 1000000 in
/-- The stretch leaves the edges' targets in their buffer. -/
theorem dsts : StableHlo.after (hostOps0 (F := Ideal)) W (Proc.devRef .tc main_v3) = dst (W (Proc.devRef .tc main_arg1)) := by
  after_results_simp <;> rfl

set_option maxHeartbeats 1000000 in
/-- The stretch leaves the neighbourhood sum of the features it found. -/
theorem aggr : StableHlo.after (hostOps0 (F := Ideal)) W (Proc.devRef .tc main_v13) = agg (W (Proc.devRef .tc main_arg0)) (src (W (Proc.devRef .tc main_arg1))) (dst (W (Proc.devRef .tc main_arg1))) := by
  after_results_simp <;> rfl

set_option maxHeartbeats 1000000 in
/-- The layer's first weight matrix. -/
theorem w1 : StableHlo.after (hostOps0 (F := Ideal)) W (Proc.devRef .tc main_v15) = wmat0 (W (Proc.devRef .tc main_arg3)) := by
  after_results_simp <;> rfl

set_option maxHeartbeats 1000000 in
/-- The layer's first bias, as one row. -/
theorem b1 : StableHlo.after (hostOps0 (F := Ideal)) W (Proc.devRef .tc main_v22) = brow (bvec0 (W (Proc.devRef .tc main_arg4))) := by
  after_results_simp <;> rfl

set_option maxHeartbeats 1000000 in
/-- The layer's second weight matrix. -/
theorem w2 : StableHlo.after (hostOps0 (F := Ideal)) W (Proc.devRef .tc main_v19) = wmat0 (W (Proc.devRef .tc main_arg5)) := by
  after_results_simp <;> rfl

set_option maxHeartbeats 1000000 in
/-- The layer's second bias, as one row. -/
theorem b2 : StableHlo.after (hostOps0 (F := Ideal)) W (Proc.devRef .tc main_v23) = brow (bvec0 (W (Proc.devRef .tc main_arg6))) := by
  after_results_simp <;> rfl

end Cert.Gin.Host0

end
-- ==== Proof.Stage0.lean ====
/-
  Layer 0 of the kernel program: the host stretch before the kernel, then the kernel.

  The stretch computes the neighbourhood sum of the current features from the edge list, slices
  the layer's weights and biases and sets each bias as one row; the kernel then writes the layer of what it finds.
  So from the launch memory, the next
  boundary but one carries the sources, targets and arguments and holds `layer` of the input features.
-/
import proofs.«173616_j21191368639148_1_alg».proof.Proof.Fold
import proofs.«173616_j21191368639148_1_alg».proof.Proof.Region0
import proofs.«173616_j21191368639148_1_alg».proof.Proof.Host0

set_option maxRecDepth 16384

noncomputable section

namespace Cert.Gin.Stage0

open Cert.KernelIdeal Cert.KernelIdeal.Gen
open Idealize.ShloMosaic Idealize.ShloMosaic.TcCoe Idealize.ShloMosaic.ValueIdx Idealize.SL.Sem Idealize.ShloMosaic.StableHlo
open Cert.Gin Cert.Gin.Fold

variable (m : (ℓ : Loc nD τ sig) → Buf (Elt Ideal) ℓ) (ρ : Dev nD → PrngReg) (c : Dev nD)

/-- The kernel's entry boundary carries the sources, targets and arguments. -/
theorem carry_mid : Carry m c (W1 (F := Ideal) m ρ c) where
  s := Host0.srcs (W0 (F := Ideal) m ρ c)
  d := Host0.dsts (W0 (F := Ideal) m ρ c)
  a2 := Host0.kept_main_arg2 (W0 (F := Ideal) m ρ c)
  a3 := Host0.kept_main_arg3 (W0 (F := Ideal) m ρ c)
  a4 := Host0.kept_main_arg4 (W0 (F := Ideal) m ρ c)
  a5 := Host0.kept_main_arg5 (W0 (F := Ideal) m ρ c)
  a6 := Host0.kept_main_arg6 (W0 (F := Ideal) m ρ c)
  a7 := Host0.kept_main_arg7 (W0 (F := Ideal) m ρ c)
  a8 := Host0.kept_main_arg8 (W0 (F := Ideal) m ρ c)

/-- The kernel's exit boundary carries them too: none is one of the kernel's arrays. -/
theorem carry_out : Carry m c (W2 (F := Ideal) m ρ c) :=
  have hm := carry_mid m ρ c
  { s := (W2_of_ne m ρ c main_v1 (by decide)).trans hm.s
    d := (W2_of_ne m ρ c main_v3 (by decide)).trans hm.d
    a2 := (W2_of_ne m ρ c main_arg2 (by decide)).trans hm.a2
    a3 := (W2_of_ne m ρ c main_arg3 (by decide)).trans hm.a3
    a4 := (W2_of_ne m ρ c main_arg4 (by decide)).trans hm.a4
    a5 := (W2_of_ne m ρ c main_arg5 (by decide)).trans hm.a5
    a6 := (W2_of_ne m ρ c main_arg6 (by decide)).trans hm.a6
    a7 := (W2_of_ne m ρ c main_arg7 (by decide)).trans hm.a7
    a8 := (W2_of_ne m ρ c main_arg8 (by decide)).trans hm.a8 }

/-- The kernel's exit boundary holds the layer of the features the stretch started from. -/
theorem out_eq :
    (W2 (F := Ideal) m ρ c) (Proc.devRef .tc main_v24) = layer (m ((c.tc : Thread nD τ).loc main_arg0)) (src (m ((c.tc : Thread nD τ).loc main_arg1))) (dst (m ((c.tc : Thread nD τ).loc main_arg1))) (wmat0 (m ((c.tc : Thread nD τ).loc main_arg3))) (bvec0 (m ((c.tc : Thread nD τ).loc main_arg4))) (wmat0 (m ((c.tc : Thread nD τ).loc main_arg5))) (bvec0 (m ((c.tc : Thread nD τ).loc main_arg6))) := by
  have eh : (W1 (F := Ideal) m ρ c) (Proc.devRef .tc main_arg0) = (m ((c.tc : Thread nD τ).loc main_arg0)) := Host0.kept_main_arg0 (W0 (F := Ideal) m ρ c)
  have eaggr : (W1 (F := Ideal) m ρ c) (Proc.devRef .tc main_v13) = agg (m ((c.tc : Thread nD τ).loc main_arg0)) (src (m ((c.tc : Thread nD τ).loc main_arg1))) (dst (m ((c.tc : Thread nD τ).loc main_arg1))) := Host0.aggr (W0 (F := Ideal) m ρ c)
  have ew1 : (W1 (F := Ideal) m ρ c) (Proc.devRef .tc main_v15) = wmat0 (m ((c.tc : Thread nD τ).loc main_arg3)) := Host0.w1 (W0 (F := Ideal) m ρ c)
  have eb1 : (W1 (F := Ideal) m ρ c) (Proc.devRef .tc main_v22) = brow (bvec0 (m ((c.tc : Thread nD τ).loc main_arg4))) := Host0.b1 (W0 (F := Ideal) m ρ c)
  have ew2 : (W1 (F := Ideal) m ρ c) (Proc.devRef .tc main_v19) = wmat0 (m ((c.tc : Thread nD τ).loc main_arg5)) := Host0.w2 (W0 (F := Ideal) m ρ c)
  have eb2 : (W1 (F := Ideal) m ρ c) (Proc.devRef .tc main_v23) = brow (bvec0 (m ((c.tc : Thread nD τ).loc main_arg6))) := Host0.b2 (W0 (F := Ideal) m ρ c)
  refine (W2_arr m ρ c 6).trans ((Cert.Gin.Region0.out_eq (V1 (F := Ideal) m ρ) c).trans ?_)
  show layerOut (n := 50000) ((W1 (F := Ideal) m ρ c) (Proc.devRef .tc main_arg0)) ((W1 (F := Ideal) m ρ c) (Proc.devRef .tc main_v13)) ((W1 (F := Ideal) m ρ c) (Proc.devRef .tc main_v15))
      (fun k => (W1 (F := Ideal) m ρ c) (Proc.devRef .tc main_v22) (ix2 (0 : Fin 1) k)) ((W1 (F := Ideal) m ρ c) (Proc.devRef .tc main_v19))
      (fun k => (W1 (F := Ideal) m ρ c) (Proc.devRef .tc main_v23) (ix2 (0 : Fin 1) k)) = _
  rw [eh, eaggr, ew1, eb1, ew2, eb2, brow_entry, brow_entry]
  rfl

end Cert.Gin.Stage0

end
-- ==== Proof.Region1.lean ====
/-
  Layer kernel 1, read as one function of the arrays it finds.

  The kernel runs on ten blocks of 5000 node rows. At block t it is handed rows 5000 t … 5000 t + 4999 of the
  features and of the neighbourhood sums, and the whole weight matrices and bias rows; it writes the same rows of
  its output. Each output entry depends only on its own row of the two node arrays, so block t of the output is
  block t of the layer applied to the whole arrays, and the ten blocks tile the 50000 rows: after the region the
  output array is the layer of the arrays as the region found them.
-/
import proofs.«173616_j21191368639148_1_alg».proof.Proof.Gen.KernelIdeal.Frame
import proofs.«173616_j21191368639148_1_alg».proof.Proof.Mlp
import Idealize.ShloMosaic.Lib.Pipeline.Value
import Idealize.ShloMosaic.Lib.ValueIdx

set_option maxRecDepth 16384

noncomputable section

namespace Cert.Gin.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.Gin

variable (V : (c : Dev nD) → (b : Ref sig .tc) → Buf (Elt Ideal) ((c : Thread nD τ).loc b))

theorem origin : (![0, 0] : Fin 2 → Nat) = fun _ => 0 := funext fun a => by fin_cases a <;> rfl

/-- The body's stored value at entry (p, q) of a block: the node update of the block's row p. -/
theorem payload_entry (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k1_pay1 (F := Ideal) x0 x1 x2 x3 x4 x5 (ix2 p q)
      = node (fun j => x0 (ix2 p j) + x1 (ix2 p j)) (fun j g => x2 (ix2 j g)) (fun g => x3 (ix2 (0 : Fin 1) g))
          (fun j g => x4 (ix2 j g)) (fun g => x5 (ix2 (0 : Fin 1) g)) q := by
  unfold k1_pay1
  simp only [shapeCast_self]
  exact kernel_entry x0 x1 x2 x4 x3 x5 dot_S5000x128_S128x128_S5000x128_1_0_0_1_n_n rfl
    Cert.KernelIdeal.Facts₀.broadcasts_S1x128_S5000x128 Cert.KernelIdeal.Facts₀.bitsLt_bf16_f32 p q

/-- The arrays the region finds, as functions of their indices: the features, the neighbourhood sums, the two weight
    matrices and the two bias rows. -/
abbrev aH (c : Dev nD) : S50000x128.Idx → EReal := V c main_v24
abbrev aA (c : Dev nD) : S50000x128.Idx → EReal := V c main_v34
abbrev aW1 (c : Dev nD) : S128x128.Idx → EReal := V c main_v36
abbrev aB1 (c : Dev nD) : S1x128.Idx → EReal := V c main_v43
abbrev aW2 (c : Dev nD) : S128x128.Idx → EReal := V c main_v40
abbrev aB2 (c : Dev nD) : S1x128.Idx → EReal := V c main_v44

/-- The windows' block indices over the grid: the two node arrays and the output move together, one block of rows
    per point; the weights and biases stay at their one block. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 400000 in
/-- What point t writes back is block t of the layer of the arrays as found: entry (p, q) of the block is the node
    update of row p of the point's blocks, which are rows 5000 t + p of the node arrays and the whole weights. -/
theorem flushed_eq (c : Dev nD) (t : Fin cfg1.N) :
    (dat1 (F := Ideal) V c).flushed 6 t = ((cfg1.win 6).blk t).view.read (Elt Ideal) (layerOut (n := 50000) (aH V c) (aA V c) (aW1 V c) (fun k => aB1 V c (ix2 (0 : Fin 1) k)) (aW2 V c) (fun k => aB2 V c (ix2 (0 : Fin 1) k))) := by
  show (cfg1.win 6).cut (grid1.coords t) ((dat1 V c).after 6 t) = _
  rw [after1_6]
  unfold out1_6
  rw [View.canon_unit_zero origin]
  simp only [View.ld_unit_zero (S := S5000x128) origin, View.ld_unit_zero (S := S128x128) origin,
    View.ld_unit_zero (S := S1x128) origin]
  obtain ⟨e00, e01, e10, e11, e20, e21, e30, e31, e40, e41, e50, e51, e60, e61⟩ := block_indices t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q) = _
  rw [View.read_apply]
  refine (payload_entry (iblk1 V c 0 t) (iblk1 V c 1 t) (iblk1 V c 2 t) (iblk1 V c 3 t) (iblk1 V c 4 t)
    (iblk1 V c 5 t) p q).trans ?_
  unfold layerOut iblk1
  simp only [View.read_apply]
  simp only [cast_eq]
  have h0 : ∀ j : Fin 128, ((View.whole main_v24).slice ((win1 0).rect t)).emb (ix2 p j) = ix2 (((View.whole main_v45).slice ((win1 6).rect t)).emb (ix2 p q) 0) j :=
    fun j => funext fun a => Fin.ext (by
      match a with
      | ⟨0, _⟩ => show win1_0.index t (0 : Fin 2) * 5000 + 1 * p.val = win1_6.index t (0 : Fin 2) * 5000 + 1 * p.val; omega
      | ⟨1, _⟩ => show win1_0.index t (1 : Fin 2) * 128 + 1 * j.val = j.val; omega)
  have h1 : ∀ j : Fin 128, ((View.whole main_v34).slice ((win1 1).rect t)).emb (ix2 p j) = ix2 (((View.whole main_v45).slice ((win1 6).rect t)).emb (ix2 p q) 0) j :=
    fun j => funext fun a => Fin.ext (by
      match a with
      | ⟨0, _⟩ => show win1_1.index t (0 : Fin 2) * 5000 + 1 * p.val = win1_6.index t (0 : Fin 2) * 5000 + 1 * p.val; omega
      | ⟨1, _⟩ => show win1_1.index t (1 : Fin 2) * 128 + 1 * j.val = j.val; omega)
  have h2 : ∀ (j g : Fin 128), ((View.whole main_v36).slice ((win1 2).rect t)).emb (ix2 j g) = ix2 j g :=
    fun j g => funext fun a => Fin.ext (by
      match a with
      | ⟨0, _⟩ => show win1_2.index t (0 : Fin 2) * 128 + 1 * j.val = j.val; omega
      | ⟨1, _⟩ => show win1_2.index t (1 : Fin 2) * 128 + 1 * g.val = g.val; omega)
  have h3 : ∀ g : Fin 128, ((View.whole main_v43).slice ((win1 3).rect t)).emb (ix2 (0 : Fin 1) g) = ix2 (0 : Fin 1) g :=
    fun g => funext fun a => Fin.ext (by
      match a with
      | ⟨0, _⟩ => show win1_3.index t (0 : Fin 2) * 1 + 1 * 0 = 0; omega
      | ⟨1, _⟩ => show win1_3.index t (1 : Fin 2) * 128 + 1 * g.val = g.val; omega)
  have h4 : ∀ (j g : Fin 128), ((View.whole main_v40).slice ((win1 4).rect t)).emb (ix2 j g) = ix2 j g :=
    fun j g => funext fun a => Fin.ext (by
      match a with
      | ⟨0, _⟩ => show win1_4.index t (0 : Fin 2) * 128 + 1 * j.val = j.val; omega
      | ⟨1, _⟩ => show win1_4.index t (1 : Fin 2) * 128 + 1 * g.val = g.val; omega)
  have h5 : ∀ g : Fin 128, ((View.whole main_v44).slice ((win1 5).rect t)).emb (ix2 (0 : Fin 1) g) = ix2 (0 : Fin 1) g :=
    fun g => funext fun a => Fin.ext (by
      match a with
      | ⟨0, _⟩ => show win1_5.index t (0 : Fin 2) * 1 + 1 * 0 = 0; omega
      | ⟨1, _⟩ => show win1_5.index t (1 : Fin 2) * 128 + 1 * g.val = g.val; omega)
  have hcol : ((View.whole main_v45).slice ((win1 6).rect t)).emb (ix2 p q) 1 = q := Fin.ext (by
    show win1_6.index t (1 : Fin 2) * 128 + 1 * q.val = q.val; omega)
  simp only [h0, h1, h2, h3, h4, h5, hcol]
  rfl

/-- An index of the output array lies in point t's block iff its row is among the block's 5000 rows. -/
theorem mem_block (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v45).slice (win1_6.rect t)).set ↔ _
  rw [View.set_slice_whole, Rect.mem_set_unit]
  exact Iff.rfl

/-- Every index of the output array is in the block of the point its row falls in. -/
theorem covered (i : S50000x128.Idx) :
    ∃ t : Fin cfg1.N, (cfg1.win 6).flush t = true ∧ i ∈ ((cfg1.win 6).blk t).view.set := by
  have hN : grid1.N = 10 := N_1
  have hi0 : (i 0).val < 50000 := (i 0).isLt
  have hi1 : (i 1).val < 128 := (i 1).isLt
  have hlt : (i 0).val / 5000 < grid1.N := by rw [hN]; omega
  obtain ⟨e00, e01, e10, e11, e20, e21, e30, e31, e40, e41, e50, e51, e60, e61⟩ := block_indices ⟨(i 0).val / 5000, hlt⟩
  have e60' : win1_6.index ⟨(i 0).val / 5000, hlt⟩ (0 : Fin 2) = (i 0).val / 5000 := e60
  refine ⟨⟨(i 0).val / 5000, hlt⟩, flush1_6 _, ?_⟩
  rw [mem_block]
  intro a
  match a with
  | ⟨0, _⟩ => show win1_6.index ⟨(i 0).val / 5000, hlt⟩ (0 : Fin 2) * 5000 ≤ (i 0).val ∧ (i 0).val < win1_6.index ⟨(i 0).val / 5000, hlt⟩ (0 : Fin 2) * 5000 + 5000; omega
  | ⟨1, _⟩ => show win1_6.index ⟨(i 0).val / 5000, hlt⟩ (1 : Fin 2) * 128 ≤ (i 1).val ∧ (i 1).val < win1_6.index ⟨(i 0).val / 5000, hlt⟩ (1 : Fin 2) * 128 + 128; omega

/-- After the region its output array is the layer of the arrays as the region found them. -/
theorem out_eq (c : Dev nD) :
    (dat1 (F := Ideal) V c).arrAt 6 cfg1.N = (layerOut (n := 50000) (aH V c) (aA V c) (aW1 V c) (fun k => aB1 V c (ix2 (0 : Fin 1) k)) (aW2 V c) (fun k => aB2 V c (ix2 (0 : Fin 1) k))) :=
  (dat1 (F := Ideal) V c).arrAt_eq_of_cover 6 _ (fun t _ => flushed_eq V c t) covered

end Cert.Gin.Region1

end
-- ==== Proof.Host1.lean ====
/-
  The stretch of host operations before layer kernel 1, from any contents: what it leaves in the kernel's operand
  buffers, and which buffers it does not touch.
-/
import proofs.«173616_j21191368639148_1_alg».proof.Proof.Gen.KernelIdeal.Frame
import proofs.«173616_j21191368639148_1_alg».proof.Proof.Terms
import Idealize.ShloMosaic.Lib.StableHlo.Run

set_option maxRecDepth 16384

noncomputable section

namespace Cert.Gin.Host1

open Cert.KernelIdeal Cert.KernelIdeal.Gen
open Idealize.ShloMosaic Idealize.ShloMosaic.TcCoe Idealize.ShloMosaic.ValueIdx Idealize.SL.Sem Idealize.ShloMosaic.StableHlo
open Cert.Gin

variable (W : Valuation τ sig (Elt Ideal))

/-- No operation of the stretch writes this buffer. -/
theorem kept_main_v24 : StableHlo.after (hostOps1 (F := Ideal)) W (Proc.devRef .tc main_v24) = (W (Proc.devRef .tc main_v24)) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_v1 : StableHlo.after (hostOps1 (F := Ideal)) W (Proc.devRef .tc main_v1) = (W (Proc.devRef .tc main_v1)) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_v3 : StableHlo.after (hostOps1 (F := Ideal)) W (Proc.devRef .tc main_v3) = (W (Proc.devRef .tc main_v3)) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg2 : StableHlo.after (hostOps1 (F := Ideal)) W (Proc.devRef .tc main_arg2) = (W (Proc.devRef .tc main_arg2)) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg3 : StableHlo.after (hostOps1 (F := Ideal)) W (Proc.devRef .tc main_arg3) = (W (Proc.devRef .tc main_arg3)) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg4 : StableHlo.after (hostOps1 (F := Ideal)) W (Proc.devRef .tc main_arg4) = (W (Proc.devRef .tc main_arg4)) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg5 : StableHlo.after (hostOps1 (F := Ideal)) W (Proc.devRef .tc main_arg5) = (W (Proc.devRef .tc main_arg5)) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg6 : StableHlo.after (hostOps1 (F := Ideal)) W (Proc.devRef .tc main_arg6) = (W (Proc.devRef .tc main_arg6)) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg7 : StableHlo.after (hostOps1 (F := Ideal)) W (Proc.devRef .tc main_arg7) = (W (Proc.devRef .tc main_arg7)) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg8 : StableHlo.after (hostOps1 (F := Ideal)) W (Proc.devRef .tc main_arg8) = (W (Proc.devRef .tc main_arg8)) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- The stretch leaves the neighbourhood sum of the features it found. -/
theorem aggr : StableHlo.after (hostOps1 (F := Ideal)) W (Proc.devRef .tc main_v34) = agg (W (Proc.devRef .tc main_v24)) (W (Proc.devRef .tc main_v1)) (W (Proc.devRef .tc main_v3)) := by
  after_results_simp <;> rfl

set_option maxHeartbeats 1000000 in
/-- The layer's first weight matrix. -/
theorem w1 : StableHlo.after (hostOps1 (F := Ideal)) W (Proc.devRef .tc main_v36) = wmat1 (W (Proc.devRef .tc main_arg3)) := by
  after_results_simp <;> rfl

set_option maxHeartbeats 1000000 in
/-- The layer's first bias, as one row. -/
theorem b1 : StableHlo.after (hostOps1 (F := Ideal)) W (Proc.devRef .tc main_v43) = brow (bvec1 (W (Proc.devRef .tc main_arg4))) := by
  after_results_simp <;> rfl

set_option maxHeartbeats 1000000 in
/-- The layer's second weight matrix. -/
theorem w2 : StableHlo.after (hostOps1 (F := Ideal)) W (Proc.devRef .tc main_v40) = wmat1 (W (Proc.devRef .tc main_arg5)) := by
  after_results_simp <;> rfl

set_option maxHeartbeats 1000000 in
/-- The layer's second bias, as one row. -/
theorem b2 : StableHlo.after (hostOps1 (F := Ideal)) W (Proc.devRef .tc main_v44) = brow (bvec1 (W (Proc.devRef .tc main_arg6))) := by
  after_results_simp <;> rfl

end Cert.Gin.Host1

end
-- ==== Proof.Stage1.lean ====
/-
  Layer 1 of the kernel program: the host stretch before the kernel, then the kernel.

  The stretch computes the neighbourhood sum of the current features from the carried sources and targets, slices
  the layer's weights and biases and sets each bias as one row; the kernel then writes the layer of what it finds.
  So from a boundary that carries the sources, targets and arguments and holds the current features H, the next
  boundary but one carries the sources, targets and arguments and holds `layer` of H.
-/
import proofs.«173616_j21191368639148_1_alg».proof.Proof.Fold
import proofs.«173616_j21191368639148_1_alg».proof.Proof.Region1
import proofs.«173616_j21191368639148_1_alg».proof.Proof.Host1

set_option maxRecDepth 16384

noncomputable section

namespace Cert.Gin.Stage1

open Cert.KernelIdeal Cert.KernelIdeal.Gen
open Idealize.ShloMosaic Idealize.ShloMosaic.TcCoe Idealize.ShloMosaic.ValueIdx Idealize.SL.Sem Idealize.ShloMosaic.StableHlo
open Cert.Gin Cert.Gin.Fold

variable (m : (ℓ : Loc nD τ sig) → Buf (Elt Ideal) ℓ) (ρ : Dev nD → PrngReg) (c : Dev nD)

/-- The kernel's entry boundary carries the sources, targets and arguments. -/
theorem carry_mid (h : Carry m c (W2 (F := Ideal) m ρ c)) : Carry m c (W3 (F := Ideal) m ρ c) where
  s := (Host1.kept_main_v1 (W2 (F := Ideal) m ρ c)).trans h.s
  d := (Host1.kept_main_v3 (W2 (F := Ideal) m ρ c)).trans h.d
  a2 := (Host1.kept_main_arg2 (W2 (F := Ideal) m ρ c)).trans h.a2
  a3 := (Host1.kept_main_arg3 (W2 (F := Ideal) m ρ c)).trans h.a3
  a4 := (Host1.kept_main_arg4 (W2 (F := Ideal) m ρ c)).trans h.a4
  a5 := (Host1.kept_main_arg5 (W2 (F := Ideal) m ρ c)).trans h.a5
  a6 := (Host1.kept_main_arg6 (W2 (F := Ideal) m ρ c)).trans h.a6
  a7 := (Host1.kept_main_arg7 (W2 (F := Ideal) m ρ c)).trans h.a7
  a8 := (Host1.kept_main_arg8 (W2 (F := Ideal) m ρ c)).trans h.a8

/-- The kernel's exit boundary carries them too: none is one of the kernel's arrays. -/
theorem carry_out (h : Carry m c (W2 (F := Ideal) m ρ c)) : Carry m c (W4 (F := Ideal) m ρ c) :=
  have hm := carry_mid m ρ c h
  { s := (W4_of_ne m ρ c main_v1 (by decide)).trans hm.s
    d := (W4_of_ne m ρ c main_v3 (by decide)).trans hm.d
    a2 := (W4_of_ne m ρ c main_arg2 (by decide)).trans hm.a2
    a3 := (W4_of_ne m ρ c main_arg3 (by decide)).trans hm.a3
    a4 := (W4_of_ne m ρ c main_arg4 (by decide)).trans hm.a4
    a5 := (W4_of_ne m ρ c main_arg5 (by decide)).trans hm.a5
    a6 := (W4_of_ne m ρ c main_arg6 (by decide)).trans hm.a6
    a7 := (W4_of_ne m ρ c main_arg7 (by decide)).trans hm.a7
    a8 := (W4_of_ne m ρ c main_arg8 (by decide)).trans hm.a8 }

/-- The kernel's exit boundary holds the layer of the features the stretch started from. -/
theorem out_eq (h : Carry m c (W2 (F := Ideal) m ρ c)) (H : FVec Ideal S50000x128 .f32) (hH : (W2 (F := Ideal) m ρ c) (Proc.devRef .tc main_v24) = H) :
    (W4 (F := Ideal) m ρ c) (Proc.devRef .tc main_v45) = layer H (src (m ((c.tc : Thread nD τ).loc main_arg1))) (dst (m ((c.tc : Thread nD τ).loc main_arg1))) (wmat1 (m ((c.tc : Thread nD τ).loc main_arg3))) (bvec1 (m ((c.tc : Thread nD τ).loc main_arg4))) (wmat1 (m ((c.tc : Thread nD τ).loc main_arg5))) (bvec1 (m ((c.tc : Thread nD τ).loc main_arg6))) := by
  have eh : (W3 (F := Ideal) m ρ c) (Proc.devRef .tc main_v24) = H := (Host1.kept_main_v24 (W2 (F := Ideal) m ρ c)).trans hH
  have eaggr : (W3 (F := Ideal) m ρ c) (Proc.devRef .tc main_v34) = agg H (src (m ((c.tc : Thread nD τ).loc main_arg1))) (dst (m ((c.tc : Thread nD τ).loc main_arg1))) := by
    rw [show (W3 (F := Ideal) m ρ c) (Proc.devRef .tc main_v34) = _ from Host1.aggr (W2 (F := Ideal) m ρ c), hH, h.s, h.d]
  have ew1 : (W3 (F := Ideal) m ρ c) (Proc.devRef .tc main_v36) = wmat1 (m ((c.tc : Thread nD τ).loc main_arg3)) := by
    rw [show (W3 (F := Ideal) m ρ c) (Proc.devRef .tc main_v36) = _ from Host1.w1 (W2 (F := Ideal) m ρ c), h.a3]
  have eb1 : (W3 (F := Ideal) m ρ c) (Proc.devRef .tc main_v43) = brow (bvec1 (m ((c.tc : Thread nD τ).loc main_arg4))) := by
    rw [show (W3 (F := Ideal) m ρ c) (Proc.devRef .tc main_v43) = _ from Host1.b1 (W2 (F := Ideal) m ρ c), h.a4]
  have ew2 : (W3 (F := Ideal) m ρ c) (Proc.devRef .tc main_v40) = wmat1 (m ((c.tc : Thread nD τ).loc main_arg5)) := by
    rw [show (W3 (F := Ideal) m ρ c) (Proc.devRef .tc main_v40) = _ from Host1.w2 (W2 (F := Ideal) m ρ c), h.a5]
  have eb2 : (W3 (F := Ideal) m ρ c) (Proc.devRef .tc main_v44) = brow (bvec1 (m ((c.tc : Thread nD τ).loc main_arg6))) := by
    rw [show (W3 (F := Ideal) m ρ c) (Proc.devRef .tc main_v44) = _ from Host1.b2 (W2 (F := Ideal) m ρ c), h.a6]
  refine (W4_arr m ρ c 6).trans ((Cert.Gin.Region1.out_eq (V3 (F := Ideal) m ρ) c).trans ?_)
  show layerOut (n := 50000) ((W3 (F := Ideal) m ρ c) (Proc.devRef .tc main_v24)) ((W3 (F := Ideal) m ρ c) (Proc.devRef .tc main_v34)) ((W3 (F := Ideal) m ρ c) (Proc.devRef .tc main_v36))
      (fun k => (W3 (F := Ideal) m ρ c) (Proc.devRef .tc main_v43) (ix2 (0 : Fin 1) k)) ((W3 (F := Ideal) m ρ c) (Proc.devRef .tc main_v40))
      (fun k => (W3 (F := Ideal) m ρ c) (Proc.devRef .tc main_v44) (ix2 (0 : Fin 1) k)) = _
  rw [eh, eaggr, ew1, eb1, ew2, eb2, brow_entry, brow_entry]
  rfl

end Cert.Gin.Stage1

end
-- ==== Proof.Region2.lean ====
/-
  Layer kernel 2, read as one function of the arrays it finds.

  The kernel runs on ten blocks of 5000 node rows. At block t it is handed rows 5000 t … 5000 t + 4999 of the
  features and of the neighbourhood sums, and the whole weight matrices and bias rows; it writes the same rows of
  its output. Each output entry depends only on its own row of the two node arrays, so block t of the output is
  block t of the layer applied to the whole arrays, and the ten blocks tile the 50000 rows: after the region the
  output array is the layer of the arrays as the region found them.
-/
import proofs.«173616_j21191368639148_1_alg».proof.Proof.Gen.KernelIdeal.Frame
import proofs.«173616_j21191368639148_1_alg».proof.Proof.Mlp
import Idealize.ShloMosaic.Lib.Pipeline.Value
import Idealize.ShloMosaic.Lib.ValueIdx

set_option maxRecDepth 16384

noncomputable section

namespace Cert.Gin.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.Gin

variable (V : (c : Dev nD) → (b : Ref sig .tc) → Buf (Elt Ideal) ((c : Thread nD τ).loc b))

theorem origin : (![0, 0] : Fin 2 → Nat) = fun _ => 0 := funext fun a => by fin_cases a <;> rfl

/-- The body's stored value at entry (p, q) of a block: the node update of the block's row p. -/
theorem payload_entry (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k2_pay1 (F := Ideal) x0 x1 x2 x3 x4 x5 (ix2 p q)
      = node (fun j => x0 (ix2 p j) + x1 (ix2 p j)) (fun j g => x2 (ix2 j g)) (fun g => x3 (ix2 (0 : Fin 1) g))
          (fun j g => x4 (ix2 j g)) (fun g => x5 (ix2 (0 : Fin 1) g)) q := by
  unfold k2_pay1
  simp only [shapeCast_self]
  exact kernel_entry x0 x1 x2 x4 x3 x5 dot_S5000x128_S128x128_S5000x128_1_0_0_1_n_n rfl
    Cert.KernelIdeal.Facts₀.broadcasts_S1x128_S5000x128 Cert.KernelIdeal.Facts₀.bitsLt_bf16_f32 p q

/-- The arrays the region finds, as functions of their indices: the features, the neighbourhood sums, the two weight
    matrices and the two bias rows. -/
abbrev aH (c : Dev nD) : S50000x128.Idx → EReal := V c main_v45
abbrev aA (c : Dev nD) : S50000x128.Idx → EReal := V c main_v55
abbrev aW1 (c : Dev nD) : S128x128.Idx → EReal := V c main_v57
abbrev aB1 (c : Dev nD) : S1x128.Idx → EReal := V c main_v64
abbrev aW2 (c : Dev nD) : S128x128.Idx → EReal := V c main_v61
abbrev aB2 (c : Dev nD) : S1x128.Idx → EReal := V c main_v65

/-- The windows' block indices over the grid: the two node arrays and the output move together, one block of rows
    per point; the weights and biases stay at their one block. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 2000000 in
/-- What point t writes back is block t of the layer of the arrays as found: entry (p, q) of the block is the node
    update of row p of the point's blocks, which are rows 5000 t + p of the node arrays and the whole weights. -/
theorem flushed_eq (c : Dev nD) (t : Fin cfg2.N) :
    (dat2 (F := Ideal) V c).flushed 6 t = ((cfg2.win 6).blk t).view.read (Elt Ideal) (layerOut (n := 50000) (aH V c) (aA V c) (aW1 V c) (fun k => aB1 V c (ix2 (0 : Fin 1) k)) (aW2 V c) (fun k => aB2 V c (ix2 (0 : Fin 1) k))) := by
  show (cfg2.win 6).cut (grid2.coords t) ((dat2 V c).after 6 t) = _
  rw [after2_6]
  unfold out2_6
  rw [View.canon_unit_zero origin]
  simp only [View.ld_unit_zero (S := S5000x128) origin, View.ld_unit_zero (S := S128x128) origin,
    View.ld_unit_zero (S := S1x128) origin]
  obtain ⟨e00, e01, e10, e11, e20, e21, e30, e31, e40, e41, e50, e51, e60, e61⟩ := block_indices t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (iblk2 V c 4 t) (iblk2 V c 5 t) (ix2 p q) = _
  rw [View.read_apply]
  refine (payload_entry (iblk2 V c 0 t) (iblk2 V c 1 t) (iblk2 V c 2 t) (iblk2 V c 3 t) (iblk2 V c 4 t)
    (iblk2 V c 5 t) p q).trans ?_
  unfold layerOut iblk2
  simp only [View.read_apply]
  simp only [cast_eq]
  have h0 : ∀ j : Fin 128, ((View.whole main_v45).slice ((win2 0).rect t)).emb (ix2 p j) = ix2 (((View.whole main_v66).slice ((win2 6).rect t)).emb (ix2 p q) 0) j :=
    fun j => funext fun a => Fin.ext (by
      match a with
      | ⟨0, _⟩ => show win2_0.index t (0 : Fin 2) * 5000 + 1 * p.val = win2_6.index t (0 : Fin 2) * 5000 + 1 * p.val; omega
      | ⟨1, _⟩ => show win2_0.index t (1 : Fin 2) * 128 + 1 * j.val = j.val; omega)
  have h1 : ∀ j : Fin 128, ((View.whole main_v55).slice ((win2 1).rect t)).emb (ix2 p j) = ix2 (((View.whole main_v66).slice ((win2 6).rect t)).emb (ix2 p q) 0) j :=
    fun j => funext fun a => Fin.ext (by
      match a with
      | ⟨0, _⟩ => show win2_1.index t (0 : Fin 2) * 5000 + 1 * p.val = win2_6.index t (0 : Fin 2) * 5000 + 1 * p.val; omega
      | ⟨1, _⟩ => show win2_1.index t (1 : Fin 2) * 128 + 1 * j.val = j.val; omega)
  have h2 : ∀ (j g : Fin 128), ((View.whole main_v57).slice ((win2 2).rect t)).emb (ix2 j g) = ix2 j g :=
    fun j g => funext fun a => Fin.ext (by
      match a with
      | ⟨0, _⟩ => show win2_2.index t (0 : Fin 2) * 128 + 1 * j.val = j.val; omega
      | ⟨1, _⟩ => show win2_2.index t (1 : Fin 2) * 128 + 1 * g.val = g.val; omega)
  have h3 : ∀ g : Fin 128, ((View.whole main_v64).slice ((win2 3).rect t)).emb (ix2 (0 : Fin 1) g) = ix2 (0 : Fin 1) g :=
    fun g => funext fun a => Fin.ext (by
      match a with
      | ⟨0, _⟩ => show win2_3.index t (0 : Fin 2) * 1 + 1 * 0 = 0; omega
      | ⟨1, _⟩ => show win2_3.index t (1 : Fin 2) * 128 + 1 * g.val = g.val; omega)
  have h4 : ∀ (j g : Fin 128), ((View.whole main_v61).slice ((win2 4).rect t)).emb (ix2 j g) = ix2 j g :=
    fun j g => funext fun a => Fin.ext (by
      match a with
      | ⟨0, _⟩ => show win2_4.index t (0 : Fin 2) * 128 + 1 * j.val = j.val; omega
      | ⟨1, _⟩ => show win2_4.index t (1 : Fin 2) * 128 + 1 * g.val = g.val; omega)
  have h5 : ∀ g : Fin 128, ((View.whole main_v65).slice ((win2 5).rect t)).emb (ix2 (0 : Fin 1) g) = ix2 (0 : Fin 1) g :=
    fun g => funext fun a => Fin.ext (by
      match a with
      | ⟨0, _⟩ => show win2_5.index t (0 : Fin 2) * 1 + 1 * 0 = 0; omega
      | ⟨1, _⟩ => show win2_5.index t (1 : Fin 2) * 128 + 1 * g.val = g.val; omega)
  have hcol : ((View.whole main_v66).slice ((win2 6).rect t)).emb (ix2 p q) 1 = q := Fin.ext (by
    show win2_6.index t (1 : Fin 2) * 128 + 1 * q.val = q.val; omega)
  simp only [h0, h1, h2, h3, h4, h5, hcol]
  rfl

/-- An index of the output array lies in point t's block iff its row is among the block's 5000 rows. -/
theorem mem_block (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v66).slice (win2_6.rect t)).set ↔ _
  rw [View.set_slice_whole, Rect.mem_set_unit]
  exact Iff.rfl

/-- Every index of the output array is in the block of the point its row falls in. -/
theorem covered (i : S50000x128.Idx) :
    ∃ t : Fin cfg2.N, (cfg2.win 6).flush t = true ∧ i ∈ ((cfg2.win 6).blk t).view.set := by
  have hN : grid2.N = 10 := N_2
  have hi0 : (i 0).val < 50000 := (i 0).isLt
  have hi1 : (i 1).val < 128 := (i 1).isLt
  have hlt : (i 0).val / 5000 < grid2.N := by rw [hN]; omega
  obtain ⟨e00, e01, e10, e11, e20, e21, e30, e31, e40, e41, e50, e51, e60, e61⟩ := block_indices ⟨(i 0).val / 5000, hlt⟩
  have e60' : win2_6.index ⟨(i 0).val / 5000, hlt⟩ (0 : Fin 2) = (i 0).val / 5000 := e60
  refine ⟨⟨(i 0).val / 5000, hlt⟩, flush2_6 _, ?_⟩
  rw [mem_block]
  intro a
  match a with
  | ⟨0, _⟩ => show win2_6.index ⟨(i 0).val / 5000, hlt⟩ (0 : Fin 2) * 5000 ≤ (i 0).val ∧ (i 0).val < win2_6.index ⟨(i 0).val / 5000, hlt⟩ (0 : Fin 2) * 5000 + 5000; omega
  | ⟨1, _⟩ => show win2_6.index ⟨(i 0).val / 5000, hlt⟩ (1 : Fin 2) * 128 ≤ (i 1).val ∧ (i 1).val < win2_6.index ⟨(i 0).val / 5000, hlt⟩ (1 : Fin 2) * 128 + 128; omega

/-- After the region its output array is the layer of the arrays as the region found them. -/
theorem out_eq (c : Dev nD) :
    (dat2 (F := Ideal) V c).arrAt 6 cfg2.N = (layerOut (n := 50000) (aH V c) (aA V c) (aW1 V c) (fun k => aB1 V c (ix2 (0 : Fin 1) k)) (aW2 V c) (fun k => aB2 V c (ix2 (0 : Fin 1) k))) :=
  (dat2 (F := Ideal) V c).arrAt_eq_of_cover 6 _ (fun t _ => flushed_eq V c t) covered

end Cert.Gin.Region2

end
-- ==== Proof.Host2.lean ====
/-
  The stretch of host operations before layer kernel 2, from any contents: what it leaves in the kernel's operand
  buffers, and which buffers it does not touch.
-/
import proofs.«173616_j21191368639148_1_alg».proof.Proof.Gen.KernelIdeal.Frame
import proofs.«173616_j21191368639148_1_alg».proof.Proof.Terms
import Idealize.ShloMosaic.Lib.StableHlo.Run

set_option maxRecDepth 16384

noncomputable section

namespace Cert.Gin.Host2

open Cert.KernelIdeal Cert.KernelIdeal.Gen
open Idealize.ShloMosaic Idealize.ShloMosaic.TcCoe Idealize.ShloMosaic.ValueIdx Idealize.SL.Sem Idealize.ShloMosaic.StableHlo
open Cert.Gin

variable (W : Valuation τ sig (Elt Ideal))

/-- No operation of the stretch writes this buffer. -/
theorem kept_main_v45 : StableHlo.after (hostOps2 (F := Ideal)) W (Proc.devRef .tc main_v45) = (W (Proc.devRef .tc main_v45)) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_v1 : StableHlo.after (hostOps2 (F := Ideal)) W (Proc.devRef .tc main_v1) = (W (Proc.devRef .tc main_v1)) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_v3 : StableHlo.after (hostOps2 (F := Ideal)) W (Proc.devRef .tc main_v3) = (W (Proc.devRef .tc main_v3)) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg2 : StableHlo.after (hostOps2 (F := Ideal)) W (Proc.devRef .tc main_arg2) = (W (Proc.devRef .tc main_arg2)) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg3 : StableHlo.after (hostOps2 (F := Ideal)) W (Proc.devRef .tc main_arg3) = (W (Proc.devRef .tc main_arg3)) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg4 : StableHlo.after (hostOps2 (F := Ideal)) W (Proc.devRef .tc main_arg4) = (W (Proc.devRef .tc main_arg4)) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg5 : StableHlo.after (hostOps2 (F := Ideal)) W (Proc.devRef .tc main_arg5) = (W (Proc.devRef .tc main_arg5)) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg6 : StableHlo.after (hostOps2 (F := Ideal)) W (Proc.devRef .tc main_arg6) = (W (Proc.devRef .tc main_arg6)) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg7 : StableHlo.after (hostOps2 (F := Ideal)) W (Proc.devRef .tc main_arg7) = (W (Proc.devRef .tc main_arg7)) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg8 : StableHlo.after (hostOps2 (F := Ideal)) W (Proc.devRef .tc main_arg8) = (W (Proc.devRef .tc main_arg8)) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- The stretch leaves the neighbourhood sum of the features it found. -/
theorem aggr : StableHlo.after (hostOps2 (F := Ideal)) W (Proc.devRef .tc main_v55) = agg (W (Proc.devRef .tc main_v45)) (W (Proc.devRef .tc main_v1)) (W (Proc.devRef .tc main_v3)) := by
  after_results_simp <;> rfl

set_option maxHeartbeats 1000000 in
/-- The layer's first weight matrix. -/
theorem w1 : StableHlo.after (hostOps2 (F := Ideal)) W (Proc.devRef .tc main_v57) = wmat2 (W (Proc.devRef .tc main_arg3)) := by
  after_results_simp <;> rfl

set_option maxHeartbeats 1000000 in
/-- The layer's first bias, as one row. -/
theorem b1 : StableHlo.after (hostOps2 (F := Ideal)) W (Proc.devRef .tc main_v64) = brow (bvec2 (W (Proc.devRef .tc main_arg4))) := by
  after_results_simp <;> rfl

set_option maxHeartbeats 1000000 in
/-- The layer's second weight matrix. -/
theorem w2 : StableHlo.after (hostOps2 (F := Ideal)) W (Proc.devRef .tc main_v61) = wmat2 (W (Proc.devRef .tc main_arg5)) := by
  after_results_simp <;> rfl

set_option maxHeartbeats 1000000 in
/-- The layer's second bias, as one row. -/
theorem b2 : StableHlo.after (hostOps2 (F := Ideal)) W (Proc.devRef .tc main_v65) = brow (bvec2 (W (Proc.devRef .tc main_arg6))) := by
  after_results_simp <;> rfl

end Cert.Gin.Host2

end
-- ==== Proof.Stage2.lean ====
/-
  Layer 2 of the kernel program: the host stretch before the kernel, then the kernel.

  The stretch computes the neighbourhood sum of the current features from the carried sources and targets, slices
  the layer's weights and biases and sets each bias as one row; the kernel then writes the layer of what it finds.
  So from a boundary that carries the sources, targets and arguments and holds the current features H, the next
  boundary but one carries the sources, targets and arguments and holds `layer` of H.
-/
import proofs.«173616_j21191368639148_1_alg».proof.Proof.Fold
import proofs.«173616_j21191368639148_1_alg».proof.Proof.Region2
import proofs.«173616_j21191368639148_1_alg».proof.Proof.Host2

set_option maxRecDepth 16384

noncomputable section

namespace Cert.Gin.Stage2

open Cert.KernelIdeal Cert.KernelIdeal.Gen
open Idealize.ShloMosaic Idealize.ShloMosaic.TcCoe Idealize.ShloMosaic.ValueIdx Idealize.SL.Sem Idealize.ShloMosaic.StableHlo
open Cert.Gin Cert.Gin.Fold

variable (m : (ℓ : Loc nD τ sig) → Buf (Elt Ideal) ℓ) (ρ : Dev nD → PrngReg) (c : Dev nD)

/-- The kernel's entry boundary carries the sources, targets and arguments. -/
theorem carry_mid (h : Carry m c (W4 (F := Ideal) m ρ c)) : Carry m c (W5 (F := Ideal) m ρ c) where
  s := (Host2.kept_main_v1 (W4 (F := Ideal) m ρ c)).trans h.s
  d := (Host2.kept_main_v3 (W4 (F := Ideal) m ρ c)).trans h.d
  a2 := (Host2.kept_main_arg2 (W4 (F := Ideal) m ρ c)).trans h.a2
  a3 := (Host2.kept_main_arg3 (W4 (F := Ideal) m ρ c)).trans h.a3
  a4 := (Host2.kept_main_arg4 (W4 (F := Ideal) m ρ c)).trans h.a4
  a5 := (Host2.kept_main_arg5 (W4 (F := Ideal) m ρ c)).trans h.a5
  a6 := (Host2.kept_main_arg6 (W4 (F := Ideal) m ρ c)).trans h.a6
  a7 := (Host2.kept_main_arg7 (W4 (F := Ideal) m ρ c)).trans h.a7
  a8 := (Host2.kept_main_arg8 (W4 (F := Ideal) m ρ c)).trans h.a8

/-- The kernel's exit boundary carries them too: none is one of the kernel's arrays. -/
theorem carry_out (h : Carry m c (W4 (F := Ideal) m ρ c)) : Carry m c (W6 (F := Ideal) m ρ c) :=
  have hm := carry_mid m ρ c h
  { s := (W6_of_ne m ρ c main_v1 (by decide)).trans hm.s
    d := (W6_of_ne m ρ c main_v3 (by decide)).trans hm.d
    a2 := (W6_of_ne m ρ c main_arg2 (by decide)).trans hm.a2
    a3 := (W6_of_ne m ρ c main_arg3 (by decide)).trans hm.a3
    a4 := (W6_of_ne m ρ c main_arg4 (by decide)).trans hm.a4
    a5 := (W6_of_ne m ρ c main_arg5 (by decide)).trans hm.a5
    a6 := (W6_of_ne m ρ c main_arg6 (by decide)).trans hm.a6
    a7 := (W6_of_ne m ρ c main_arg7 (by decide)).trans hm.a7
    a8 := (W6_of_ne m ρ c main_arg8 (by decide)).trans hm.a8 }

/-- The kernel's exit boundary holds the layer of the features the stretch started from. -/
theorem out_eq (h : Carry m c (W4 (F := Ideal) m ρ c)) (H : FVec Ideal S50000x128 .f32) (hH : (W4 (F := Ideal) m ρ c) (Proc.devRef .tc main_v45) = H) :
    (W6 (F := Ideal) m ρ c) (Proc.devRef .tc main_v66) = layer H (src (m ((c.tc : Thread nD τ).loc main_arg1))) (dst (m ((c.tc : Thread nD τ).loc main_arg1))) (wmat2 (m ((c.tc : Thread nD τ).loc main_arg3))) (bvec2 (m ((c.tc : Thread nD τ).loc main_arg4))) (wmat2 (m ((c.tc : Thread nD τ).loc main_arg5))) (bvec2 (m ((c.tc : Thread nD τ).loc main_arg6))) := by
  have eh : (W5 (F := Ideal) m ρ c) (Proc.devRef .tc main_v45) = H := (Host2.kept_main_v45 (W4 (F := Ideal) m ρ c)).trans hH
  have eaggr : (W5 (F := Ideal) m ρ c) (Proc.devRef .tc main_v55) = agg H (src (m ((c.tc : Thread nD τ).loc main_arg1))) (dst (m ((c.tc : Thread nD τ).loc main_arg1))) := by
    rw [show (W5 (F := Ideal) m ρ c) (Proc.devRef .tc main_v55) = _ from Host2.aggr (W4 (F := Ideal) m ρ c), hH, h.s, h.d]
  have ew1 : (W5 (F := Ideal) m ρ c) (Proc.devRef .tc main_v57) = wmat2 (m ((c.tc : Thread nD τ).loc main_arg3)) := by
    rw [show (W5 (F := Ideal) m ρ c) (Proc.devRef .tc main_v57) = _ from Host2.w1 (W4 (F := Ideal) m ρ c), h.a3]
  have eb1 : (W5 (F := Ideal) m ρ c) (Proc.devRef .tc main_v64) = brow (bvec2 (m ((c.tc : Thread nD τ).loc main_arg4))) := by
    rw [show (W5 (F := Ideal) m ρ c) (Proc.devRef .tc main_v64) = _ from Host2.b1 (W4 (F := Ideal) m ρ c), h.a4]
  have ew2 : (W5 (F := Ideal) m ρ c) (Proc.devRef .tc main_v61) = wmat2 (m ((c.tc : Thread nD τ).loc main_arg5)) := by
    rw [show (W5 (F := Ideal) m ρ c) (Proc.devRef .tc main_v61) = _ from Host2.w2 (W4 (F := Ideal) m ρ c), h.a5]
  have eb2 : (W5 (F := Ideal) m ρ c) (Proc.devRef .tc main_v65) = brow (bvec2 (m ((c.tc : Thread nD τ).loc main_arg6))) := by
    rw [show (W5 (F := Ideal) m ρ c) (Proc.devRef .tc main_v65) = _ from Host2.b2 (W4 (F := Ideal) m ρ c), h.a6]
  refine (W6_arr m ρ c 6).trans ((Cert.Gin.Region2.out_eq (V5 (F := Ideal) m ρ) c).trans ?_)
  show layerOut (n := 50000) ((W5 (F := Ideal) m ρ c) (Proc.devRef .tc main_v45)) ((W5 (F := Ideal) m ρ c) (Proc.devRef .tc main_v55)) ((W5 (F := Ideal) m ρ c) (Proc.devRef .tc main_v57))
      (fun k => (W5 (F := Ideal) m ρ c) (Proc.devRef .tc main_v64) (ix2 (0 : Fin 1) k)) ((W5 (F := Ideal) m ρ c) (Proc.devRef .tc main_v61))
      (fun k => (W5 (F := Ideal) m ρ c) (Proc.devRef .tc main_v65) (ix2 (0 : Fin 1) k)) = _
  rw [eh, eaggr, ew1, eb1, ew2, eb2, brow_entry, brow_entry]
  rfl

end Cert.Gin.Stage2

end
-- ==== Proof.Region3.lean ====
/-
  Layer kernel 3, read as one function of the arrays it finds.

  The kernel runs on ten blocks of 5000 node rows. At block t it is handed rows 5000 t … 5000 t + 4999 of the
  features and of the neighbourhood sums, and the whole weight matrices and bias rows; it writes the same rows of
  its output. Each output entry depends only on its own row of the two node arrays, so block t of the output is
  block t of the layer applied to the whole arrays, and the ten blocks tile the 50000 rows: after the region the
  output array is the layer of the arrays as the region found them.
-/
import proofs.«173616_j21191368639148_1_alg».proof.Proof.Gen.KernelIdeal.Frame
import proofs.«173616_j21191368639148_1_alg».proof.Proof.Mlp
import Idealize.ShloMosaic.Lib.Pipeline.Value
import Idealize.ShloMosaic.Lib.ValueIdx

set_option maxRecDepth 16384

noncomputable section

namespace Cert.Gin.Region3

open Cert.KernelIdeal Cert.KernelIdeal.Gen
open Idealize.ShloMosaic Idealize.ShloMosaic.TcCoe Idealize.ShloMosaic.ValueIdx Idealize.SL.Sem
open Idealize.ShloMosaic.Pipeline (Dat)
open Cert.Gin

variable (V : (c : Dev nD) → (b : Ref sig .tc) → Buf (Elt Ideal) ((c : Thread nD τ).loc b))

theorem origin : (![0, 0] : Fin 2 → Nat) = fun _ => 0 := funext fun a => by fin_cases a <;> rfl

/-- The body's stored value at entry (p, q) of a block: the node update of the block's row p. -/
theorem payload_entry (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k3_pay1 (F := Ideal) x0 x1 x2 x3 x4 x5 (ix2 p q)
      = node (fun j => x0 (ix2 p j) + x1 (ix2 p j)) (fun j g => x2 (ix2 j g)) (fun g => x3 (ix2 (0 : Fin 1) g))
          (fun j g => x4 (ix2 j g)) (fun g => x5 (ix2 (0 : Fin 1) g)) q := by
  unfold k3_pay1
  simp only [shapeCast_self]
  exact kernel_entry x0 x1 x2 x4 x3 x5 dot_S5000x128_S128x128_S5000x128_1_0_0_1_n_n rfl
    Cert.KernelIdeal.Facts₀.broadcasts_S1x128_S5000x128 Cert.KernelIdeal.Facts₀.bitsLt_bf16_f32 p q

/-- The arrays the region finds, as functions of their indices: the features, the neighbourhood sums, the two weight
    matrices and the two bias rows. -/
abbrev aH (c : Dev nD) : S50000x128.Idx → EReal := V c main_v66
abbrev aA (c : Dev nD) : S50000x128.Idx → EReal := V c main_v76
abbrev aW1 (c : Dev nD) : S128x128.Idx → EReal := V c main_v78
abbrev aB1 (c : Dev nD) : S1x128.Idx → EReal := V c main_v85
abbrev aW2 (c : Dev nD) : S128x128.Idx → EReal := V c main_v82
abbrev aB2 (c : Dev nD) : S1x128.Idx → EReal := V c main_v86

/-- The windows' block indices over the grid: the two node arrays and the output move together, one block of rows
    per point; the weights and biases stay at their one block. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

set_option maxHeartbeats 2000000 in
/-- What point t writes back is block t of the layer of the arrays as found: entry (p, q) of the block is the node
    update of row p of the point's blocks, which are rows 5000 t + p of the node arrays and the whole weights. -/
theorem flushed_eq (c : Dev nD) (t : Fin cfg3.N) :
    (dat3 (F := Ideal) V c).flushed 6 t = ((cfg3.win 6).blk t).view.read (Elt Ideal) (layerOut (n := 50000) (aH V c) (aA V c) (aW1 V c) (fun k => aB1 V c (ix2 (0 : Fin 1) k)) (aW2 V c) (fun k => aB2 V c (ix2 (0 : Fin 1) k))) := by
  show (cfg3.win 6).cut (grid3.coords t) ((dat3 V c).after 6 t) = _
  rw [after3_6]
  unfold out3_6
  rw [View.canon_unit_zero origin]
  simp only [View.ld_unit_zero (S := S5000x128) origin, View.ld_unit_zero (S := S128x128) origin,
    View.ld_unit_zero (S := S1x128) origin]
  obtain ⟨e00, e01, e10, e11, e20, e21, e30, e31, e40, e41, e50, e51, e60, e61⟩ := block_indices t
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (iblk3 V c 3 t) (iblk3 V c 4 t) (iblk3 V c 5 t) (ix2 p q) = _
  rw [View.read_apply]
  refine (payload_entry (iblk3 V c 0 t) (iblk3 V c 1 t) (iblk3 V c 2 t) (iblk3 V c 3 t) (iblk3 V c 4 t)
    (iblk3 V c 5 t) p q).trans ?_
  unfold layerOut iblk3
  simp only [View.read_apply]
  simp only [cast_eq]
  have h0 : ∀ j : Fin 128, ((View.whole main_v66).slice ((win3 0).rect t)).emb (ix2 p j) = ix2 (((View.whole main_v87).slice ((win3 6).rect t)).emb (ix2 p q) 0) j :=
    fun j => funext fun a => Fin.ext (by
      match a with
      | ⟨0, _⟩ => show win3_0.index t (0 : Fin 2) * 5000 + 1 * p.val = win3_6.index t (0 : Fin 2) * 5000 + 1 * p.val; omega
      | ⟨1, _⟩ => show win3_0.index t (1 : Fin 2) * 128 + 1 * j.val = j.val; omega)
  have h1 : ∀ j : Fin 128, ((View.whole main_v76).slice ((win3 1).rect t)).emb (ix2 p j) = ix2 (((View.whole main_v87).slice ((win3 6).rect t)).emb (ix2 p q) 0) j :=
    fun j => funext fun a => Fin.ext (by
      match a with
      | ⟨0, _⟩ => show win3_1.index t (0 : Fin 2) * 5000 + 1 * p.val = win3_6.index t (0 : Fin 2) * 5000 + 1 * p.val; omega
      | ⟨1, _⟩ => show win3_1.index t (1 : Fin 2) * 128 + 1 * j.val = j.val; omega)
  have h2 : ∀ (j g : Fin 128), ((View.whole main_v78).slice ((win3 2).rect t)).emb (ix2 j g) = ix2 j g :=
    fun j g => funext fun a => Fin.ext (by
      match a with
      | ⟨0, _⟩ => show win3_2.index t (0 : Fin 2) * 128 + 1 * j.val = j.val; omega
      | ⟨1, _⟩ => show win3_2.index t (1 : Fin 2) * 128 + 1 * g.val = g.val; omega)
  have h3 : ∀ g : Fin 128, ((View.whole main_v85).slice ((win3 3).rect t)).emb (ix2 (0 : Fin 1) g) = ix2 (0 : Fin 1) g :=
    fun g => funext fun a => Fin.ext (by
      match a with
      | ⟨0, _⟩ => show win3_3.index t (0 : Fin 2) * 1 + 1 * 0 = 0; omega
      | ⟨1, _⟩ => show win3_3.index t (1 : Fin 2) * 128 + 1 * g.val = g.val; omega)
  have h4 : ∀ (j g : Fin 128), ((View.whole main_v82).slice ((win3 4).rect t)).emb (ix2 j g) = ix2 j g :=
    fun j g => funext fun a => Fin.ext (by
      match a with
      | ⟨0, _⟩ => show win3_4.index t (0 : Fin 2) * 128 + 1 * j.val = j.val; omega
      | ⟨1, _⟩ => show win3_4.index t (1 : Fin 2) * 128 + 1 * g.val = g.val; omega)
  have h5 : ∀ g : Fin 128, ((View.whole main_v86).slice ((win3 5).rect t)).emb (ix2 (0 : Fin 1) g) = ix2 (0 : Fin 1) g :=
    fun g => funext fun a => Fin.ext (by
      match a with
      | ⟨0, _⟩ => show win3_5.index t (0 : Fin 2) * 1 + 1 * 0 = 0; omega
      | ⟨1, _⟩ => show win3_5.index t (1 : Fin 2) * 128 + 1 * g.val = g.val; omega)
  have hcol : ((View.whole main_v87).slice ((win3 6).rect t)).emb (ix2 p q) 1 = q := Fin.ext (by
    show win3_6.index t (1 : Fin 2) * 128 + 1 * q.val = q.val; omega)
  simp only [h0, h1, h2, h3, h4, h5, hcol]
  rfl

/-- An index of the output array lies in point t's block iff its row is among the block's 5000 rows. -/
theorem mem_block (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v87).slice (win3_6.rect t)).set ↔ _
  rw [View.set_slice_whole, Rect.mem_set_unit]
  exact Iff.rfl

/-- Every index of the output array is in the block of the point its row falls in. -/
theorem covered (i : S50000x128.Idx) :
    ∃ t : Fin cfg3.N, (cfg3.win 6).flush t = true ∧ i ∈ ((cfg3.win 6).blk t).view.set := by
  have hN : grid3.N = 10 := N_3
  have hi0 : (i 0).val < 50000 := (i 0).isLt
  have hi1 : (i 1).val < 128 := (i 1).isLt
  have hlt : (i 0).val / 5000 < grid3.N := by rw [hN]; omega
  obtain ⟨e00, e01, e10, e11, e20, e21, e30, e31, e40, e41, e50, e51, e60, e61⟩ := block_indices ⟨(i 0).val / 5000, hlt⟩
  have e60' : win3_6.index ⟨(i 0).val / 5000, hlt⟩ (0 : Fin 2) = (i 0).val / 5000 := e60
  refine ⟨⟨(i 0).val / 5000, hlt⟩, flush3_6 _, ?_⟩
  rw [mem_block]
  intro a
  match a with
  | ⟨0, _⟩ => show win3_6.index ⟨(i 0).val / 5000, hlt⟩ (0 : Fin 2) * 5000 ≤ (i 0).val ∧ (i 0).val < win3_6.index ⟨(i 0).val / 5000, hlt⟩ (0 : Fin 2) * 5000 + 5000; omega
  | ⟨1, _⟩ => show win3_6.index ⟨(i 0).val / 5000, hlt⟩ (1 : Fin 2) * 128 ≤ (i 1).val ∧ (i 1).val < win3_6.index ⟨(i 0).val / 5000, hlt⟩ (1 : Fin 2) * 128 + 128; omega

/-- After the region its output array is the layer of the arrays as the region found them. -/
theorem out_eq (c : Dev nD) :
    (dat3 (F := Ideal) V c).arrAt 6 cfg3.N = (layerOut (n := 50000) (aH V c) (aA V c) (aW1 V c) (fun k => aB1 V c (ix2 (0 : Fin 1) k)) (aW2 V c) (fun k => aB2 V c (ix2 (0 : Fin 1) k))) :=
  (dat3 (F := Ideal) V c).arrAt_eq_of_cover 6 _ (fun t _ => flushed_eq V c t) covered

end Cert.Gin.Region3

end
-- ==== Proof.Host3.lean ====
/-
  The stretch of host operations before layer kernel 3, from any contents: what it leaves in the kernel's operand
  buffers, and which buffers it does not touch.
-/
import proofs.«173616_j21191368639148_1_alg».proof.Proof.Gen.KernelIdeal.Frame
import proofs.«173616_j21191368639148_1_alg».proof.Proof.Terms
import Idealize.ShloMosaic.Lib.StableHlo.Run

set_option maxRecDepth 16384

noncomputable section

namespace Cert.Gin.Host3

open Cert.KernelIdeal Cert.KernelIdeal.Gen
open Idealize.ShloMosaic Idealize.ShloMosaic.TcCoe Idealize.ShloMosaic.ValueIdx Idealize.SL.Sem Idealize.ShloMosaic.StableHlo
open Cert.Gin

variable (W : Valuation τ sig (Elt Ideal))

/-- No operation of the stretch writes this buffer. -/
theorem kept_main_v66 : StableHlo.after (hostOps3 (F := Ideal)) W (Proc.devRef .tc main_v66) = (W (Proc.devRef .tc main_v66)) :=
  StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_v1 : StableHlo.after (hostOps3 (F := Ideal)) W (Proc.devRef .tc main_v1) = (W (Proc.devRef .tc main_v1)) :=
  StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_v3 : StableHlo.after (hostOps3 (F := Ideal)) W (Proc.devRef .tc main_v3) = (W (Proc.devRef .tc main_v3)) :=
  StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg2 : StableHlo.after (hostOps3 (F := Ideal)) W (Proc.devRef .tc main_arg2) = (W (Proc.devRef .tc main_arg2)) :=
  StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg3 : StableHlo.after (hostOps3 (F := Ideal)) W (Proc.devRef .tc main_arg3) = (W (Proc.devRef .tc main_arg3)) :=
  StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg4 : StableHlo.after (hostOps3 (F := Ideal)) W (Proc.devRef .tc main_arg4) = (W (Proc.devRef .tc main_arg4)) :=
  StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg5 : StableHlo.after (hostOps3 (F := Ideal)) W (Proc.devRef .tc main_arg5) = (W (Proc.devRef .tc main_arg5)) :=
  StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg6 : StableHlo.after (hostOps3 (F := Ideal)) W (Proc.devRef .tc main_arg6) = (W (Proc.devRef .tc main_arg6)) :=
  StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg7 : StableHlo.after (hostOps3 (F := Ideal)) W (Proc.devRef .tc main_arg7) = (W (Proc.devRef .tc main_arg7)) :=
  StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg8 : StableHlo.after (hostOps3 (F := Ideal)) W (Proc.devRef .tc main_arg8) = (W (Proc.devRef .tc main_arg8)) :=
  StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- The stretch leaves the neighbourhood sum of the features it found. -/
theorem aggr : StableHlo.after (hostOps3 (F := Ideal)) W (Proc.devRef .tc main_v76) = agg (W (Proc.devRef .tc main_v66)) (W (Proc.devRef .tc main_v1)) (W (Proc.devRef .tc main_v3)) := by
  after_results_simp <;> rfl

set_option maxHeartbeats 1000000 in
/-- The layer's first weight matrix. -/
theorem w1 : StableHlo.after (hostOps3 (F := Ideal)) W (Proc.devRef .tc main_v78) = wmat3 (W (Proc.devRef .tc main_arg3)) := by
  after_results_simp <;> rfl

set_option maxHeartbeats 1000000 in
/-- The layer's first bias, as one row. -/
theorem b1 : StableHlo.after (hostOps3 (F := Ideal)) W (Proc.devRef .tc main_v85) = brow (bvec3 (W (Proc.devRef .tc main_arg4))) := by
  after_results_simp <;> rfl

set_option maxHeartbeats 1000000 in
/-- The layer's second weight matrix. -/
theorem w2 : StableHlo.after (hostOps3 (F := Ideal)) W (Proc.devRef .tc main_v82) = wmat3 (W (Proc.devRef .tc main_arg5)) := by
  after_results_simp <;> rfl

set_option maxHeartbeats 1000000 in
/-- The layer's second bias, as one row. -/
theorem b2 : StableHlo.after (hostOps3 (F := Ideal)) W (Proc.devRef .tc main_v86) = brow (bvec3 (W (Proc.devRef .tc main_arg6))) := by
  after_results_simp <;> rfl

end Cert.Gin.Host3

end
-- ==== Proof.Stage3.lean ====
/-
  Layer 3 of the kernel program: the host stretch before the kernel, then the kernel.

  The stretch computes the neighbourhood sum of the current features from the carried sources and targets, slices
  the layer's weights and biases and sets each bias as one row; the kernel then writes the layer of what it finds.
  So from a boundary that carries the sources, targets and arguments and holds the current features H, the next
  boundary but one carries the sources, targets and arguments and holds `layer` of H.
-/
import proofs.«173616_j21191368639148_1_alg».proof.Proof.Fold
import proofs.«173616_j21191368639148_1_alg».proof.Proof.Region3
import proofs.«173616_j21191368639148_1_alg».proof.Proof.Host3

set_option maxRecDepth 16384

noncomputable section

namespace Cert.Gin.Stage3

open Cert.KernelIdeal Cert.KernelIdeal.Gen
open Idealize.ShloMosaic Idealize.ShloMosaic.TcCoe Idealize.ShloMosaic.ValueIdx Idealize.SL.Sem Idealize.ShloMosaic.StableHlo
open Cert.Gin Cert.Gin.Fold

variable (m : (ℓ : Loc nD τ sig) → Buf (Elt Ideal) ℓ) (ρ : Dev nD → PrngReg) (c : Dev nD)

/-- The kernel's entry boundary carries the sources, targets and arguments. -/
theorem carry_mid (h : Carry m c (W6 (F := Ideal) m ρ c)) : Carry m c (W7 (F := Ideal) m ρ c) where
  s := (Host3.kept_main_v1 (W6 (F := Ideal) m ρ c)).trans h.s
  d := (Host3.kept_main_v3 (W6 (F := Ideal) m ρ c)).trans h.d
  a2 := (Host3.kept_main_arg2 (W6 (F := Ideal) m ρ c)).trans h.a2
  a3 := (Host3.kept_main_arg3 (W6 (F := Ideal) m ρ c)).trans h.a3
  a4 := (Host3.kept_main_arg4 (W6 (F := Ideal) m ρ c)).trans h.a4
  a5 := (Host3.kept_main_arg5 (W6 (F := Ideal) m ρ c)).trans h.a5
  a6 := (Host3.kept_main_arg6 (W6 (F := Ideal) m ρ c)).trans h.a6
  a7 := (Host3.kept_main_arg7 (W6 (F := Ideal) m ρ c)).trans h.a7
  a8 := (Host3.kept_main_arg8 (W6 (F := Ideal) m ρ c)).trans h.a8

/-- The kernel's exit boundary carries them too: none is one of the kernel's arrays. -/
theorem carry_out (h : Carry m c (W6 (F := Ideal) m ρ c)) : Carry m c (W8 (F := Ideal) m ρ c) :=
  have hm := carry_mid m ρ c h
  { s := (W8_of_ne m ρ c main_v1 (by decide)).trans hm.s
    d := (W8_of_ne m ρ c main_v3 (by decide)).trans hm.d
    a2 := (W8_of_ne m ρ c main_arg2 (by decide)).trans hm.a2
    a3 := (W8_of_ne m ρ c main_arg3 (by decide)).trans hm.a3
    a4 := (W8_of_ne m ρ c main_arg4 (by decide)).trans hm.a4
    a5 := (W8_of_ne m ρ c main_arg5 (by decide)).trans hm.a5
    a6 := (W8_of_ne m ρ c main_arg6 (by decide)).trans hm.a6
    a7 := (W8_of_ne m ρ c main_arg7 (by decide)).trans hm.a7
    a8 := (W8_of_ne m ρ c main_arg8 (by decide)).trans hm.a8 }

/-- The kernel's exit boundary holds the layer of the features the stretch started from. -/
theorem out_eq (h : Carry m c (W6 (F := Ideal) m ρ c)) (H : FVec Ideal S50000x128 .f32) (hH : (W6 (F := Ideal) m ρ c) (Proc.devRef .tc main_v66) = H) :
    (W8 (F := Ideal) m ρ c) (Proc.devRef .tc main_v87) = layer H (src (m ((c.tc : Thread nD τ).loc main_arg1))) (dst (m ((c.tc : Thread nD τ).loc main_arg1))) (wmat3 (m ((c.tc : Thread nD τ).loc main_arg3))) (bvec3 (m ((c.tc : Thread nD τ).loc main_arg4))) (wmat3 (m ((c.tc : Thread nD τ).loc main_arg5))) (bvec3 (m ((c.tc : Thread nD τ).loc main_arg6))) := by
  have eh : (W7 (F := Ideal) m ρ c) (Proc.devRef .tc main_v66) = H := (Host3.kept_main_v66 (W6 (F := Ideal) m ρ c)).trans hH
  have eaggr : (W7 (F := Ideal) m ρ c) (Proc.devRef .tc main_v76) = agg H (src (m ((c.tc : Thread nD τ).loc main_arg1))) (dst (m ((c.tc : Thread nD τ).loc main_arg1))) := by
    rw [show (W7 (F := Ideal) m ρ c) (Proc.devRef .tc main_v76) = _ from Host3.aggr (W6 (F := Ideal) m ρ c), hH, h.s, h.d]
  have ew1 : (W7 (F := Ideal) m ρ c) (Proc.devRef .tc main_v78) = wmat3 (m ((c.tc : Thread nD τ).loc main_arg3)) := by
    rw [show (W7 (F := Ideal) m ρ c) (Proc.devRef .tc main_v78) = _ from Host3.w1 (W6 (F := Ideal) m ρ c), h.a3]
  have eb1 : (W7 (F := Ideal) m ρ c) (Proc.devRef .tc main_v85) = brow (bvec3 (m ((c.tc : Thread nD τ).loc main_arg4))) := by
    rw [show (W7 (F := Ideal) m ρ c) (Proc.devRef .tc main_v85) = _ from Host3.b1 (W6 (F := Ideal) m ρ c), h.a4]
  have ew2 : (W7 (F := Ideal) m ρ c) (Proc.devRef .tc main_v82) = wmat3 (m ((c.tc : Thread nD τ).loc main_arg5)) := by
    rw [show (W7 (F := Ideal) m ρ c) (Proc.devRef .tc main_v82) = _ from Host3.w2 (W6 (F := Ideal) m ρ c), h.a5]
  have eb2 : (W7 (F := Ideal) m ρ c) (Proc.devRef .tc main_v86) = brow (bvec3 (m ((c.tc : Thread nD τ).loc main_arg6))) := by
    rw [show (W7 (F := Ideal) m ρ c) (Proc.devRef .tc main_v86) = _ from Host3.b2 (W6 (F := Ideal) m ρ c), h.a6]
  refine (W8_arr m ρ c 6).trans ((Cert.Gin.Region3.out_eq (V7 (F := Ideal) m ρ) c).trans ?_)
  show layerOut (n := 50000) ((W7 (F := Ideal) m ρ c) (Proc.devRef .tc main_v66)) ((W7 (F := Ideal) m ρ c) (Proc.devRef .tc main_v76)) ((W7 (F := Ideal) m ρ c) (Proc.devRef .tc main_v78))
      (fun k => (W7 (F := Ideal) m ρ c) (Proc.devRef .tc main_v85) (ix2 (0 : Fin 1) k)) ((W7 (F := Ideal) m ρ c) (Proc.devRef .tc main_v82))
      (fun k => (W7 (F := Ideal) m ρ c) (Proc.devRef .tc main_v86) (ix2 (0 : Fin 1) k)) = _
  rw [eh, eaggr, ew1, eb1, ew2, eb2, brow_entry, brow_entry]
  rfl

end Cert.Gin.Stage3

end
-- ==== Proof.Region4.lean ====
/-
  Layer kernel 4, read as one function of the arrays it finds.

  The kernel runs on ten blocks of 5000 node rows. At block t it is handed rows 5000 t … 5000 t + 4999 of the
  features and of the neighbourhood sums, and the whole weight matrices and bias rows; it writes the same rows of
  its output. Each output entry depends only on its own row of the two node arrays, so block t of the output is
  block t of the layer applied to the whole arrays, and the ten blocks tile the 50000 rows: after the region the
  output array is the layer of the arrays as the region found them.
-/
import proofs.«173616_j21191368639148_1_alg».proof.Proof.Gen.KernelIdeal.Frame
import proofs.«173616_j21191368639148_1_alg».proof.Proof.Mlp
import Idealize.ShloMosaic.Lib.Pipeline.Value
import Idealize.ShloMosaic.Lib.ValueIdx

set_option maxRecDepth 16384

noncomputable section

namespace Cert.Gin.Region4

open Cert.KernelIdeal Cert.KernelIdeal.Gen
open Idealize.ShloMosaic Idealize.ShloMosaic.TcCoe Idealize.ShloMosaic.ValueIdx Idealize.SL.Sem
open Idealize.ShloMosaic.Pipeline (Dat)
open Cert.Gin

variable (V : (c : Dev nD) → (b : Ref sig .tc) → Buf (Elt Ideal) ((c : Thread nD τ).loc b))

theorem origin : (![0, 0] : Fin 2 → Nat) = fun _ => 0 := funext fun a => by fin_cases a <;> rfl

/-- The body's stored value at entry (p, q) of a block: the node update of the block's row p. -/
theorem payload_entry (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k4_pay1 (F := Ideal) x0 x1 x2 x3 x4 x5 (ix2 p q)
      = node (fun j => x0 (ix2 p j) + x1 (ix2 p j)) (fun j g => x2 (ix2 j g)) (fun g => x3 (ix2 (0 : Fin 1) g))
          (fun j g => x4 (ix2 j g)) (fun g => x5 (ix2 (0 : Fin 1) g)) q := by
  unfold k4_pay1
  simp only [shapeCast_self]
  exact kernel_entry x0 x1 x2 x4 x3 x5 dot_S5000x128_S128x128_S5000x128_1_0_0_1_n_n rfl
    Cert.KernelIdeal.Facts₀.broadcasts_S1x128_S5000x128 Cert.KernelIdeal.Facts₀.bitsLt_bf16_f32 p q

/-- The arrays the region finds, as functions of their indices: the features, the neighbourhood sums, the two weight
    matrices and the two bias rows. -/
abbrev aH (c : Dev nD) : S50000x128.Idx → EReal := V c main_v87
abbrev aA (c : Dev nD) : S50000x128.Idx → EReal := V c main_v97
abbrev aW1 (c : Dev nD) : S128x128.Idx → EReal := V c main_v99
abbrev aB1 (c : Dev nD) : S1x128.Idx → EReal := V c main_v106
abbrev aW2 (c : Dev nD) : S128x128.Idx → EReal := V c main_v103
abbrev aB2 (c : Dev nD) : S1x128.Idx → EReal := V c main_v107

/-- The windows' block indices over the grid: the two node arrays and the output move together, one block of rows
    per point; the weights and biases stay at their one block. -/
theorem block_indices : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

set_option maxHeartbeats 2000000 in
/-- What point t writes back is block t of the layer of the arrays as found: entry (p, q) of the block is the node
    update of row p of the point's blocks, which are rows 5000 t + p of the node arrays and the whole weights. -/
theorem flushed_eq (c : Dev nD) (t : Fin cfg4.N) :
    (dat4 (F := Ideal) V c).flushed 6 t = ((cfg4.win 6).blk t).view.read (Elt Ideal) (layerOut (n := 50000) (aH V c) (aA V c) (aW1 V c) (fun k => aB1 V c (ix2 (0 : Fin 1) k)) (aW2 V c) (fun k => aB2 V c (ix2 (0 : Fin 1) k))) := by
  show (cfg4.win 6).cut (grid4.coords t) ((dat4 V c).after 6 t) = _
  rw [after4_6]
  unfold out4_6
  rw [View.canon_unit_zero origin]
  simp only [View.ld_unit_zero (S := S5000x128) origin, View.ld_unit_zero (S := S128x128) origin,
    View.ld_unit_zero (S := S1x128) origin]
  obtain ⟨e00, e01, e10, e11, e20, e21, e30, e31, e40, e41, e50, e51, e60, e61⟩ := block_indices t
  funext j
  obtain ⟨p, q, rfl⟩ : ∃ (p : Fin 5000) (q : Fin 128), j = ix2 p q := ⟨j 0, j 1, eq_ix2 j⟩
  show k4_pay1 (iblk4 V c 0 t) (iblk4 V c 1 t) (iblk4 V c 2 t) (iblk4 V c 3 t) (iblk4 V c 4 t) (iblk4 V c 5 t) (ix2 p q) = _
  rw [View.read_apply]
  refine (payload_entry (iblk4 V c 0 t) (iblk4 V c 1 t) (iblk4 V c 2 t) (iblk4 V c 3 t) (iblk4 V c 4 t)
    (iblk4 V c 5 t) p q).trans ?_
  unfold layerOut iblk4
  simp only [View.read_apply]
  simp only [cast_eq]
  have h0 : ∀ j : Fin 128, ((View.whole main_v87).slice ((win4 0).rect t)).emb (ix2 p j) = ix2 (((View.whole main_v108).slice ((win4 6).rect t)).emb (ix2 p q) 0) j :=
    fun j => funext fun a => Fin.ext (by
      match a with
      | ⟨0, _⟩ => show win4_0.index t (0 : Fin 2) * 5000 + 1 * p.val = win4_6.index t (0 : Fin 2) * 5000 + 1 * p.val; omega
      | ⟨1, _⟩ => show win4_0.index t (1 : Fin 2) * 128 + 1 * j.val = j.val; omega)
  have h1 : ∀ j : Fin 128, ((View.whole main_v97).slice ((win4 1).rect t)).emb (ix2 p j) = ix2 (((View.whole main_v108).slice ((win4 6).rect t)).emb (ix2 p q) 0) j :=
    fun j => funext fun a => Fin.ext (by
      match a with
      | ⟨0, _⟩ => show win4_1.index t (0 : Fin 2) * 5000 + 1 * p.val = win4_6.index t (0 : Fin 2) * 5000 + 1 * p.val; omega
      | ⟨1, _⟩ => show win4_1.index t (1 : Fin 2) * 128 + 1 * j.val = j.val; omega)
  have h2 : ∀ (j g : Fin 128), ((View.whole main_v99).slice ((win4 2).rect t)).emb (ix2 j g) = ix2 j g :=
    fun j g => funext fun a => Fin.ext (by
      match a with
      | ⟨0, _⟩ => show win4_2.index t (0 : Fin 2) * 128 + 1 * j.val = j.val; omega
      | ⟨1, _⟩ => show win4_2.index t (1 : Fin 2) * 128 + 1 * g.val = g.val; omega)
  have h3 : ∀ g : Fin 128, ((View.whole main_v106).slice ((win4 3).rect t)).emb (ix2 (0 : Fin 1) g) = ix2 (0 : Fin 1) g :=
    fun g => funext fun a => Fin.ext (by
      match a with
      | ⟨0, _⟩ => show win4_3.index t (0 : Fin 2) * 1 + 1 * 0 = 0; omega
      | ⟨1, _⟩ => show win4_3.index t (1 : Fin 2) * 128 + 1 * g.val = g.val; omega)
  have h4 : ∀ (j g : Fin 128), ((View.whole main_v103).slice ((win4 4).rect t)).emb (ix2 j g) = ix2 j g :=
    fun j g => funext fun a => Fin.ext (by
      match a with
      | ⟨0, _⟩ => show win4_4.index t (0 : Fin 2) * 128 + 1 * j.val = j.val; omega
      | ⟨1, _⟩ => show win4_4.index t (1 : Fin 2) * 128 + 1 * g.val = g.val; omega)
  have h5 : ∀ g : Fin 128, ((View.whole main_v107).slice ((win4 5).rect t)).emb (ix2 (0 : Fin 1) g) = ix2 (0 : Fin 1) g :=
    fun g => funext fun a => Fin.ext (by
      match a with
      | ⟨0, _⟩ => show win4_5.index t (0 : Fin 2) * 1 + 1 * 0 = 0; omega
      | ⟨1, _⟩ => show win4_5.index t (1 : Fin 2) * 128 + 1 * g.val = g.val; omega)
  have hcol : ((View.whole main_v108).slice ((win4 6).rect t)).emb (ix2 p q) 1 = q := Fin.ext (by
    show win4_6.index t (1 : Fin 2) * 128 + 1 * q.val = q.val; omega)
  simp only [h0, h1, h2, h3, h4, h5, hcol]
  rfl

/-- An index of the output array lies in point t's block iff its row is among the block's 5000 rows. -/
theorem mem_block (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v108).slice (win4_6.rect t)).set ↔ _
  rw [View.set_slice_whole, Rect.mem_set_unit]
  exact Iff.rfl

/-- Every index of the output array is in the block of the point its row falls in. -/
theorem covered (i : S50000x128.Idx) :
    ∃ t : Fin cfg4.N, (cfg4.win 6).flush t = true ∧ i ∈ ((cfg4.win 6).blk t).view.set := by
  have hN : grid4.N = 10 := N_4
  have hi0 : (i 0).val < 50000 := (i 0).isLt
  have hi1 : (i 1).val < 128 := (i 1).isLt
  have hlt : (i 0).val / 5000 < grid4.N := by rw [hN]; omega
  obtain ⟨e00, e01, e10, e11, e20, e21, e30, e31, e40, e41, e50, e51, e60, e61⟩ := block_indices ⟨(i 0).val / 5000, hlt⟩
  have e60' : win4_6.index ⟨(i 0).val / 5000, hlt⟩ (0 : Fin 2) = (i 0).val / 5000 := e60
  refine ⟨⟨(i 0).val / 5000, hlt⟩, flush4_6 _, ?_⟩
  rw [mem_block]
  intro a
  match a with
  | ⟨0, _⟩ => show win4_6.index ⟨(i 0).val / 5000, hlt⟩ (0 : Fin 2) * 5000 ≤ (i 0).val ∧ (i 0).val < win4_6.index ⟨(i 0).val / 5000, hlt⟩ (0 : Fin 2) * 5000 + 5000; omega
  | ⟨1, _⟩ => show win4_6.index ⟨(i 0).val / 5000, hlt⟩ (1 : Fin 2) * 128 ≤ (i 1).val ∧ (i 1).val < win4_6.index ⟨(i 0).val / 5000, hlt⟩ (1 : Fin 2) * 128 + 128; omega

/-- After the region its output array is the layer of the arrays as the region found them. -/
theorem out_eq (c : Dev nD) :
    (dat4 (F := Ideal) V c).arrAt 6 cfg4.N = (layerOut (n := 50000) (aH V c) (aA V c) (aW1 V c) (fun k => aB1 V c (ix2 (0 : Fin 1) k)) (aW2 V c) (fun k => aB2 V c (ix2 (0 : Fin 1) k))) :=
  (dat4 (F := Ideal) V c).arrAt_eq_of_cover 6 _ (fun t _ => flushed_eq V c t) covered

end Cert.Gin.Region4

end
-- ==== Proof.Host4.lean ====
/-
  The stretch of host operations before layer kernel 4, from any contents: what it leaves in the kernel's operand
  buffers, and which buffers it does not touch.
-/
import proofs.«173616_j21191368639148_1_alg».proof.Proof.Gen.KernelIdeal.Frame
import proofs.«173616_j21191368639148_1_alg».proof.Proof.Terms
import Idealize.ShloMosaic.Lib.StableHlo.Run

set_option maxRecDepth 16384

noncomputable section

namespace Cert.Gin.Host4

open Cert.KernelIdeal Cert.KernelIdeal.Gen
open Idealize.ShloMosaic Idealize.ShloMosaic.TcCoe Idealize.ShloMosaic.ValueIdx Idealize.SL.Sem Idealize.ShloMosaic.StableHlo
open Cert.Gin

variable (W : Valuation τ sig (Elt Ideal))

/-- No operation of the stretch writes this buffer. -/
theorem kept_main_v87 : StableHlo.after (hostOps4 (F := Ideal)) W (Proc.devRef .tc main_v87) = (W (Proc.devRef .tc main_v87)) :=
  StableHlo.after_of_forall_not_mem _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_v1 : StableHlo.after (hostOps4 (F := Ideal)) W (Proc.devRef .tc main_v1) = (W (Proc.devRef .tc main_v1)) :=
  StableHlo.after_of_forall_not_mem _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_v3 : StableHlo.after (hostOps4 (F := Ideal)) W (Proc.devRef .tc main_v3) = (W (Proc.devRef .tc main_v3)) :=
  StableHlo.after_of_forall_not_mem _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg2 : StableHlo.after (hostOps4 (F := Ideal)) W (Proc.devRef .tc main_arg2) = (W (Proc.devRef .tc main_arg2)) :=
  StableHlo.after_of_forall_not_mem _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg3 : StableHlo.after (hostOps4 (F := Ideal)) W (Proc.devRef .tc main_arg3) = (W (Proc.devRef .tc main_arg3)) :=
  StableHlo.after_of_forall_not_mem _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg4 : StableHlo.after (hostOps4 (F := Ideal)) W (Proc.devRef .tc main_arg4) = (W (Proc.devRef .tc main_arg4)) :=
  StableHlo.after_of_forall_not_mem _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg5 : StableHlo.after (hostOps4 (F := Ideal)) W (Proc.devRef .tc main_arg5) = (W (Proc.devRef .tc main_arg5)) :=
  StableHlo.after_of_forall_not_mem _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg6 : StableHlo.after (hostOps4 (F := Ideal)) W (Proc.devRef .tc main_arg6) = (W (Proc.devRef .tc main_arg6)) :=
  StableHlo.after_of_forall_not_mem _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg7 : StableHlo.after (hostOps4 (F := Ideal)) W (Proc.devRef .tc main_arg7) = (W (Proc.devRef .tc main_arg7)) :=
  StableHlo.after_of_forall_not_mem _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the stretch writes this buffer. -/
theorem kept_main_arg8 : StableHlo.after (hostOps4 (F := Ideal)) W (Proc.devRef .tc main_arg8) = (W (Proc.devRef .tc main_arg8)) :=
  StableHlo.after_of_forall_not_mem _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 1000000 in
/-- The stretch leaves the neighbourhood sum of the features it found. -/
theorem aggr : StableHlo.after (hostOps4 (F := Ideal)) W (Proc.devRef .tc main_v97) = agg (W (Proc.devRef .tc main_v87)) (W (Proc.devRef .tc main_v1)) (W (Proc.devRef .tc main_v3)) := by
  after_results_simp <;> rfl

set_option maxHeartbeats 1000000 in
/-- The layer's first weight matrix. -/
theorem w1 : StableHlo.after (hostOps4 (F := Ideal)) W (Proc.devRef .tc main_v99) = wmat4 (W (Proc.devRef .tc main_arg3)) := by
  after_results_simp <;> rfl

set_option maxHeartbeats 1000000 in
/-- The layer's first bias, as one row. -/
theorem b1 : StableHlo.after (hostOps4 (F := Ideal)) W (Proc.devRef .tc main_v106) = brow (bvec4 (W (Proc.devRef .tc main_arg4))) := by
  after_results_simp <;> rfl

set_option maxHeartbeats 1000000 in
/-- The layer's second weight matrix. -/
theorem w2 : StableHlo.after (hostOps4 (F := Ideal)) W (Proc.devRef .tc main_v103) = wmat4 (W (Proc.devRef .tc main_arg5)) := by
  after_results_simp <;> rfl

set_option maxHeartbeats 1000000 in
/-- The layer's second bias, as one row. -/
theorem b2 : StableHlo.after (hostOps4 (F := Ideal)) W (Proc.devRef .tc main_v107) = brow (bvec4 (W (Proc.devRef .tc main_arg6))) := by
  after_results_simp <;> rfl

end Cert.Gin.Host4

end
-- ==== Proof.Stage4.lean ====
/-
  Layer 4 of the kernel program: the host stretch before the kernel, then the kernel.

  The stretch computes the neighbourhood sum of the current features from the carried sources and targets, slices
  the layer's weights and biases and sets each bias as one row; the kernel then writes the layer of what it finds.
  So from a boundary that carries the sources, targets and arguments and holds the current features H, the next
  boundary but one carries the sources, targets and arguments and holds `layer` of H.
-/
import proofs.«173616_j21191368639148_1_alg».proof.Proof.Fold
import proofs.«173616_j21191368639148_1_alg».proof.Proof.Region4
import proofs.«173616_j21191368639148_1_alg».proof.Proof.Host4

set_option maxRecDepth 16384

noncomputable section

namespace Cert.Gin.Stage4

open Cert.KernelIdeal Cert.KernelIdeal.Gen
open Idealize.ShloMosaic Idealize.ShloMosaic.TcCoe Idealize.ShloMosaic.ValueIdx Idealize.SL.Sem Idealize.ShloMosaic.StableHlo
open Cert.Gin Cert.Gin.Fold

variable (m : (ℓ : Loc nD τ sig) → Buf (Elt Ideal) ℓ) (ρ : Dev nD → PrngReg) (c : Dev nD)

/-- The kernel's entry boundary carries the sources, targets and arguments. -/
theorem carry_mid (h : Carry m c (W8 (F := Ideal) m ρ c)) : Carry m c (W9 (F := Ideal) m ρ c) where
  s := (Host4.kept_main_v1 (W8 (F := Ideal) m ρ c)).trans h.s
  d := (Host4.kept_main_v3 (W8 (F := Ideal) m ρ c)).trans h.d
  a2 := (Host4.kept_main_arg2 (W8 (F := Ideal) m ρ c)).trans h.a2
  a3 := (Host4.kept_main_arg3 (W8 (F := Ideal) m ρ c)).trans h.a3
  a4 := (Host4.kept_main_arg4 (W8 (F := Ideal) m ρ c)).trans h.a4
  a5 := (Host4.kept_main_arg5 (W8 (F := Ideal) m ρ c)).trans h.a5
  a6 := (Host4.kept_main_arg6 (W8 (F := Ideal) m ρ c)).trans h.a6
  a7 := (Host4.kept_main_arg7 (W8 (F := Ideal) m ρ c)).trans h.a7
  a8 := (Host4.kept_main_arg8 (W8 (F := Ideal) m ρ c)).trans h.a8

/-- The kernel's exit boundary carries them too: none is one of the kernel's arrays. -/
theorem carry_out (h : Carry m c (W8 (F := Ideal) m ρ c)) : Carry m c (W10 (F := Ideal) m ρ c) :=
  have hm := carry_mid m ρ c h
  { s := (W10_of_ne m ρ c main_v1 (by decide)).trans hm.s
    d := (W10_of_ne m ρ c main_v3 (by decide)).trans hm.d
    a2 := (W10_of_ne m ρ c main_arg2 (by decide)).trans hm.a2
    a3 := (W10_of_ne m ρ c main_arg3 (by decide)).trans hm.a3
    a4 := (W10_of_ne m ρ c main_arg4 (by decide)).trans hm.a4
    a5 := (W10_of_ne m ρ c main_arg5 (by decide)).trans hm.a5
    a6 := (W10_of_ne m ρ c main_arg6 (by decide)).trans hm.a6
    a7 := (W10_of_ne m ρ c main_arg7 (by decide)).trans hm.a7
    a8 := (W10_of_ne m ρ c main_arg8 (by decide)).trans hm.a8 }

/-- The kernel's exit boundary holds the layer of the features the stretch started from. -/
theorem out_eq (h : Carry m c (W8 (F := Ideal) m ρ c)) (H : FVec Ideal S50000x128 .f32) (hH : (W8 (F := Ideal) m ρ c) (Proc.devRef .tc main_v87) = H) :
    (W10 (F := Ideal) m ρ c) (Proc.devRef .tc main_v108) = layer H (src (m ((c.tc : Thread nD τ).loc main_arg1))) (dst (m ((c.tc : Thread nD τ).loc main_arg1))) (wmat4 (m ((c.tc : Thread nD τ).loc main_arg3))) (bvec4 (m ((c.tc : Thread nD τ).loc main_arg4))) (wmat4 (m ((c.tc : Thread nD τ).loc main_arg5))) (bvec4 (m ((c.tc : Thread nD τ).loc main_arg6))) := by
  have eh : (W9 (F := Ideal) m ρ c) (Proc.devRef .tc main_v87) = H := (Host4.kept_main_v87 (W8 (F := Ideal) m ρ c)).trans hH
  have eaggr : (W9 (F := Ideal) m ρ c) (Proc.devRef .tc main_v97) = agg H (src (m ((c.tc : Thread nD τ).loc main_arg1))) (dst (m ((c.tc : Thread nD τ).loc main_arg1))) := by
    rw [show (W9 (F := Ideal) m ρ c) (Proc.devRef .tc main_v97) = _ from Host4.aggr (W8 (F := Ideal) m ρ c), hH, h.s, h.d]
  have ew1 : (W9 (F := Ideal) m ρ c) (Proc.devRef .tc main_v99) = wmat4 (m ((c.tc : Thread nD τ).loc main_arg3)) := by
    rw [show (W9 (F := Ideal) m ρ c) (Proc.devRef .tc main_v99) = _ from Host4.w1 (W8 (F := Ideal) m ρ c), h.a3]
  have eb1 : (W9 (F := Ideal) m ρ c) (Proc.devRef .tc main_v106) = brow (bvec4 (m ((c.tc : Thread nD τ).loc main_arg4))) := by
    rw [show (W9 (F := Ideal) m ρ c) (Proc.devRef .tc main_v106) = _ from Host4.b1 (W8 (F := Ideal) m ρ c), h.a4]
  have ew2 : (W9 (F := Ideal) m ρ c) (Proc.devRef .tc main_v103) = wmat4 (m ((c.tc : Thread nD τ).loc main_arg5)) := by
    rw [show (W9 (F := Ideal) m ρ c) (Proc.devRef .tc main_v103) = _ from Host4.w2 (W8 (F := Ideal) m ρ c), h.a5]
  have eb2 : (W9 (F := Ideal) m ρ c) (Proc.devRef .tc main_v107) = brow (bvec4 (m ((c.tc : Thread nD τ).loc main_arg6))) := by
    rw [show (W9 (F := Ideal) m ρ c) (Proc.devRef .tc main_v107) = _ from Host4.b2 (W8 (F := Ideal) m ρ c), h.a6]
  refine (W10_arr m ρ c 6).trans ((Cert.Gin.Region4.out_eq (V9 (F := Ideal) m ρ) c).trans ?_)
  show layerOut (n := 50000) ((W9 (F := Ideal) m ρ c) (Proc.devRef .tc main_v87)) ((W9 (F := Ideal) m ρ c) (Proc.devRef .tc main_v97)) ((W9 (F := Ideal) m ρ c) (Proc.devRef .tc main_v99))
      (fun k => (W9 (F := Ideal) m ρ c) (Proc.devRef .tc main_v106) (ix2 (0 : Fin 1) k)) ((W9 (F := Ideal) m ρ c) (Proc.devRef .tc main_v103))
      (fun k => (W9 (F := Ideal) m ρ c) (Proc.devRef .tc main_v107) (ix2 (0 : Fin 1) k)) = _
  rw [eh, eaggr, ew1, eb1, ew2, eb2, brow_entry, brow_entry]
  rfl

end Cert.Gin.Stage4

end
-- ==== Proof.Host5.lean ====
/-
  The last stretch of host operations of the kernel program, from any contents: it computes the read-out of the
  fifth layer's output with the node-to-graph map and the read-out weights and bias.
-/
import proofs.«173616_j21191368639148_1_alg».proof.Proof.Gen.KernelIdeal.Frame
import proofs.«173616_j21191368639148_1_alg».proof.Proof.Terms
import Idealize.ShloMosaic.Lib.StableHlo.Run

set_option maxRecDepth 16384

noncomputable section

namespace Cert.Gin.Host5

open Cert.KernelIdeal Cert.KernelIdeal.Gen
open Idealize.ShloMosaic Idealize.ShloMosaic.TcCoe Idealize.ShloMosaic.ValueIdx Idealize.SL.Sem Idealize.ShloMosaic.StableHlo
open Cert.Gin

variable (W : Valuation τ sig (Elt Ideal))

set_option maxHeartbeats 1000000 in
/-- The result buffer after the stretch is the read-out of what the stretch found. -/
theorem result : StableHlo.after (hostOps5 (F := Ideal)) W (Proc.devRef .tc main_v123) = readout (W (Proc.devRef .tc main_v108)) (W (Proc.devRef .tc main_arg2)) (W (Proc.devRef .tc main_arg7)) (W (Proc.devRef .tc main_arg8)) := by
  after_results_simp <;> rfl

end Cert.Gin.Host5

end
-- ==== Proof.KernelValue.lean ====
/-
  The kernel program's result is the network of its arguments.

  The first layer starts from the input features; each further layer starts from the boundary the layer before
  left, which carries the edges' sources and targets and the arguments and holds that layer's output. The last
  stretch of host operations is the read-out of the fifth layer's output. Chained, the result buffer at the last
  boundary is the read-out of five nested layers of the arguments, and the run ends with the result at it.
-/
import proofs.«173616_j21191368639148_1_alg».proof.Proof.KernelRun
import proofs.«173616_j21191368639148_1_alg».proof.Proof.Stage0
import proofs.«173616_j21191368639148_1_alg».proof.Proof.Stage1
import proofs.«173616_j21191368639148_1_alg».proof.Proof.Stage2
import proofs.«173616_j21191368639148_1_alg».proof.Proof.Stage3
import proofs.«173616_j21191368639148_1_alg».proof.Proof.Stage4
import proofs.«173616_j21191368639148_1_alg».proof.Proof.Host5

set_option maxRecDepth 16384

noncomputable section

namespace Cert.Gin.KernelValue

open Cert.KernelIdeal Cert.KernelIdeal.Gen
open Idealize.ShloMosaic Idealize.ShloMosaic.TcCoe Idealize.ShloMosaic.ValueIdx Idealize.SL.Sem Idealize.ShloMosaic.StableHlo
open Cert.Gin Cert.Gin.Fold

variable (m : (ℓ : Loc nD τ sig) → Buf (Elt Ideal) ℓ) (ρ : Dev nD → PrngReg)

/-- The result buffer at the last boundary is the network of the arguments. -/
theorem result_eq (c : Dev nD) :
    W11 (F := Ideal) m ρ c (Proc.devRef .tc main_v123) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have c2 := Stage0.carry_out m ρ c
  have h1 := Stage0.out_eq m ρ c
  have c4 := Stage1.carry_out m ρ c c2
  have h2 := Stage1.out_eq m ρ c c2 _ h1
  have c6 := Stage2.carry_out m ρ c c4
  have h3 := Stage2.out_eq m ρ c c4 _ h2
  have c8 := Stage3.carry_out m ρ c c6
  have h4 := Stage3.out_eq m ρ c c6 _ h3
  have c10 := Stage4.carry_out m ρ c c8
  have h5 := Stage4.out_eq m ρ c c8 _ h4
  have hr : W11 (F := Ideal) m ρ c (Proc.devRef .tc main_v123)
      = readout (W10 (F := Ideal) m ρ c (Proc.devRef .tc main_v108)) (W10 (F := Ideal) m ρ c (Proc.devRef .tc main_arg2))
          (W10 (F := Ideal) m ρ c (Proc.devRef .tc main_arg7)) (W10 (F := Ideal) m ρ c (Proc.devRef .tc main_arg8)) :=
    Host5.result (W10 (F := Ideal) m ρ c)
  rw [hr, h5, c10.a2, c10.a7, c10.a8]
  rfl

/-- Every weakly fair execution of the kernel program ends with the result at the network of the arguments and the
    arguments as launched. -/
theorem run : θ_run defs (onTc (τ := τ) (main (F := Ideal))) ⟨m, fun _ => 0, ρ⟩ (fun r => ∀ c : Dev nD,
      r.2.mem ((c.tc : Thread nD τ).loc main_v123) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.Gin.Run.run_result (F := Ideal) m ρ)

end Cert.Gin.KernelValue

end
-- ==== Proof.RefValue.lean ====
/-
  The reference, stage by stage.

  The reference computes each layer on the whole node array with host operations: the neighbourhood sum, two
  dot_generals with their biases spread over the rows, and the two clamps at zero (a called relu function: the
  maximum with a zero splat). Read at an entry, that is the node update of the entry's row, so the stage after a
  layer is `layer` of the stage before it; the result is the read-out of the stage after the fifth layer.
-/
import proofs.«173616_j21191368639148_1_alg».proof.Proof.Gen.ReferenceIdeal.Read
import proofs.«173616_j21191368639148_1_alg».proof.Proof.Terms

set_option maxRecDepth 16384

noncomputable section

namespace Cert.Gin.Ref

open Cert.ReferenceIdeal Cert.ReferenceIdeal.Facts₀ Cert.ReferenceIdeal.Facts Cert.ReferenceIdeal.Read
open Idealize.ShloMosaic Idealize.ShloMosaic.ValueIdx
open Cert.Gin

/-- Layer 0's neighbourhood sum, weights and biases in the reference are the shared host pieces. -/
theorem pieces0 (x0 : (⟨S50000x128, .f32⟩ : BufTy).Contents (Elt Ideal)) (x1 : (⟨S2x800000, .i32⟩ : BufTy).Contents (Elt Ideal))
    (x3 : (⟨S5x128x128, .f32⟩ : BufTy).Contents (Elt Ideal)) (x4 : (⟨S5x128, .f32⟩ : BufTy).Contents (Elt Ideal))
    (x5 : (⟨S5x128x128, .f32⟩ : BufTy).Contents (Elt Ideal)) (x6 : (⟨S5x128, .f32⟩ : BufTy).Contents (Elt Ideal)) :
    (val_main_v13 (F := Ideal) x0 x1) = agg x0 (src x1) (dst x1)
    ∧ (val_main_v16 (F := Ideal) x3) = wmat0 x3 ∧ (val_main_v19 (F := Ideal) x4) = bvec0 x4 ∧ (val_main_v25 (F := Ideal) x5) = wmat0 x5 ∧ (val_main_v28 (F := Ideal) x6) = bvec0 x6 :=
  ⟨rfl, rfl, rfl, rfl, rfl⟩

/-- The reference's stage after layer 0 is the layer of the stage before it. -/
theorem layer0_eq (x0 : (⟨S50000x128, .f32⟩ : BufTy).Contents (Elt Ideal)) (x1 : (⟨S2x800000, .i32⟩ : BufTy).Contents (Elt Ideal))
    (x3 : (⟨S5x128x128, .f32⟩ : BufTy).Contents (Elt Ideal)) (x4 : (⟨S5x128, .f32⟩ : BufTy).Contents (Elt Ideal))
    (x5 : (⟨S5x128x128, .f32⟩ : BufTy).Contents (Elt Ideal)) (x6 : (⟨S5x128, .f32⟩ : BufTy).Contents (Elt Ideal)) :
    (val_main_v32 (F := Ideal) x0 x1 x3 x4 x5 x6) = layer x0 (src x1) (dst x1) (wmat0 x3) (bvec0 x4) (wmat0 x5) (bvec0 x6) := by
  obtain ⟨ea, ew1, eb1, ew2, eb2⟩ := pieces0 x0 x1 x3 x4 x5 x6
  funext i
  obtain ⟨p, q, rfl⟩ : ∃ (p : Fin 50000) (q : Fin 128), i = ix2 p q := ⟨i 0, i 1, eq_ix2 i⟩
  unfold val_main_v32 val_main_v31 val_main_v26 val_main_v23 val_main_v22 val_main_v17 val_main_v14
    val_main_v30 val_main_v29 val_main_v21 val_main_v20 val_main_call0_v0 val_main_call0_cst val_main_call1_v0 val_main_call1_cst
  refine (host_entry x0 (val_main_v13 (F := Ideal) x0 x1) (val_main_v16 (F := Ideal) x3) (val_main_v25 (F := Ideal) x5) (val_main_v19 (F := Ideal) x4) (val_main_v28 (F := Ideal) x6)
    dot_S50000x128_S128x128_S50000x128_1_0_0_1_n_n rfl bcast_S1x128_S50000x128_0_1 bcast_S128_S1x128_1 bcast_S_S50000x128 p q).trans ?_
  rw [ea, ew1, eb1, ew2, eb2]
  rfl

/-- Layer 1's neighbourhood sum, weights and biases in the reference are the shared host pieces. -/
theorem pieces1 (x0 : (⟨S50000x128, .f32⟩ : BufTy).Contents (Elt Ideal)) (x1 : (⟨S2x800000, .i32⟩ : BufTy).Contents (Elt Ideal))
    (x3 : (⟨S5x128x128, .f32⟩ : BufTy).Contents (Elt Ideal)) (x4 : (⟨S5x128, .f32⟩ : BufTy).Contents (Elt Ideal))
    (x5 : (⟨S5x128x128, .f32⟩ : BufTy).Contents (Elt Ideal)) (x6 : (⟨S5x128, .f32⟩ : BufTy).Contents (Elt Ideal)) :
    (val_main_v42 (F := Ideal) x0 x1 x3 x4 x5 x6) = agg (val_main_v32 (F := Ideal) x0 x1 x3 x4 x5 x6) (src x1) (dst x1)
    ∧ (val_main_v45 (F := Ideal) x3) = wmat1 x3 ∧ (val_main_v48 (F := Ideal) x4) = bvec1 x4 ∧ (val_main_v54 (F := Ideal) x5) = wmat1 x5 ∧ (val_main_v57 (F := Ideal) x6) = bvec1 x6 :=
  ⟨rfl, rfl, rfl, rfl, rfl⟩

/-- The reference's stage after layer 1 is the layer of the stage before it. -/
theorem layer1_eq (x0 : (⟨S50000x128, .f32⟩ : BufTy).Contents (Elt Ideal)) (x1 : (⟨S2x800000, .i32⟩ : BufTy).Contents (Elt Ideal))
    (x3 : (⟨S5x128x128, .f32⟩ : BufTy).Contents (Elt Ideal)) (x4 : (⟨S5x128, .f32⟩ : BufTy).Contents (Elt Ideal))
    (x5 : (⟨S5x128x128, .f32⟩ : BufTy).Contents (Elt Ideal)) (x6 : (⟨S5x128, .f32⟩ : BufTy).Contents (Elt Ideal)) :
    (val_main_v61 (F := Ideal) x0 x1 x3 x4 x5 x6) = layer (val_main_v32 (F := Ideal) x0 x1 x3 x4 x5 x6) (src x1) (dst x1) (wmat1 x3) (bvec1 x4) (wmat1 x5) (bvec1 x6) := by
  obtain ⟨ea, ew1, eb1, ew2, eb2⟩ := pieces1 x0 x1 x3 x4 x5 x6
  funext i
  obtain ⟨p, q, rfl⟩ : ∃ (p : Fin 50000) (q : Fin 128), i = ix2 p q := ⟨i 0, i 1, eq_ix2 i⟩
  unfold val_main_v61 val_main_v60 val_main_v55 val_main_v52 val_main_v51 val_main_v46 val_main_v43
    val_main_v59 val_main_v58 val_main_v50 val_main_v49 val_main_call2_v0 val_main_call2_cst val_main_call3_v0 val_main_call3_cst
  refine (host_entry (val_main_v32 (F := Ideal) x0 x1 x3 x4 x5 x6) (val_main_v42 (F := Ideal) x0 x1 x3 x4 x5 x6) (val_main_v45 (F := Ideal) x3) (val_main_v54 (F := Ideal) x5) (val_main_v48 (F := Ideal) x4) (val_main_v57 (F := Ideal) x6)
    dot_S50000x128_S128x128_S50000x128_1_0_0_1_n_n rfl bcast_S1x128_S50000x128_0_1 bcast_S128_S1x128_1 bcast_S_S50000x128 p q).trans ?_
  rw [ea, ew1, eb1, ew2, eb2]
  rfl

/-- Layer 2's neighbourhood sum, weights and biases in the reference are the shared host pieces. -/
theorem pieces2 (x0 : (⟨S50000x128, .f32⟩ : BufTy).Contents (Elt Ideal)) (x1 : (⟨S2x800000, .i32⟩ : BufTy).Contents (Elt Ideal))
    (x3 : (⟨S5x128x128, .f32⟩ : BufTy).Contents (Elt Ideal)) (x4 : (⟨S5x128, .f32⟩ : BufTy).Contents (Elt Ideal))
    (x5 : (⟨S5x128x128, .f32⟩ : BufTy).Contents (Elt Ideal)) (x6 : (⟨S5x128, .f32⟩ : BufTy).Contents (Elt Ideal)) :
    (val_main_v71 (F := Ideal) x0 x1 x3 x4 x5 x6) = agg (val_main_v61 (F := Ideal) x0 x1 x3 x4 x5 x6) (src x1) (dst x1)
    ∧ (val_main_v74 (F := Ideal) x3) = wmat2 x3 ∧ (val_main_v77 (F := Ideal) x4) = bvec2 x4 ∧ (val_main_v83 (F := Ideal) x5) = wmat2 x5 ∧ (val_main_v86 (F := Ideal) x6) = bvec2 x6 :=
  ⟨rfl, rfl, rfl, rfl, rfl⟩

/-- The reference's stage after layer 2 is the layer of the stage before it. -/
theorem layer2_eq (x0 : (⟨S50000x128, .f32⟩ : BufTy).Contents (Elt Ideal)) (x1 : (⟨S2x800000, .i32⟩ : BufTy).Contents (Elt Ideal))
    (x3 : (⟨S5x128x128, .f32⟩ : BufTy).Contents (Elt Ideal)) (x4 : (⟨S5x128, .f32⟩ : BufTy).Contents (Elt Ideal))
    (x5 : (⟨S5x128x128, .f32⟩ : BufTy).Contents (Elt Ideal)) (x6 : (⟨S5x128, .f32⟩ : BufTy).Contents (Elt Ideal)) :
    (val_main_v90 (F := Ideal) x0 x1 x3 x4 x5 x6) = layer (val_main_v61 (F := Ideal) x0 x1 x3 x4 x5 x6) (src x1) (dst x1) (wmat2 x3) (bvec2 x4) (wmat2 x5) (bvec2 x6) := by
  obtain ⟨ea, ew1, eb1, ew2, eb2⟩ := pieces2 x0 x1 x3 x4 x5 x6
  funext i
  obtain ⟨p, q, rfl⟩ : ∃ (p : Fin 50000) (q : Fin 128), i = ix2 p q := ⟨i 0, i 1, eq_ix2 i⟩
  unfold val_main_v90 val_main_v89 val_main_v84 val_main_v81 val_main_v80 val_main_v75 val_main_v72
    val_main_v88 val_main_v87 val_main_v79 val_main_v78 val_main_call4_v0 val_main_call4_cst val_main_call5_v0 val_main_call5_cst
  refine (host_entry (val_main_v61 (F := Ideal) x0 x1 x3 x4 x5 x6) (val_main_v71 (F := Ideal) x0 x1 x3 x4 x5 x6) (val_main_v74 (F := Ideal) x3) (val_main_v83 (F := Ideal) x5) (val_main_v77 (F := Ideal) x4) (val_main_v86 (F := Ideal) x6)
    dot_S50000x128_S128x128_S50000x128_1_0_0_1_n_n rfl bcast_S1x128_S50000x128_0_1 bcast_S128_S1x128_1 bcast_S_S50000x128 p q).trans ?_
  rw [ea, ew1, eb1, ew2, eb2]
  rfl

/-- Layer 3's neighbourhood sum, weights and biases in the reference are the shared host pieces. -/
theorem pieces3 (x0 : (⟨S50000x128, .f32⟩ : BufTy).Contents (Elt Ideal)) (x1 : (⟨S2x800000, .i32⟩ : BufTy).Contents (Elt Ideal))
    (x3 : (⟨S5x128x128, .f32⟩ : BufTy).Contents (Elt Ideal)) (x4 : (⟨S5x128, .f32⟩ : BufTy).Contents (Elt Ideal))
    (x5 : (⟨S5x128x128, .f32⟩ : BufTy).Contents (Elt Ideal)) (x6 : (⟨S5x128, .f32⟩ : BufTy).Contents (Elt Ideal)) :
    (val_main_v100 (F := Ideal) x0 x1 x3 x4 x5 x6) = agg (val_main_v90 (F := Ideal) x0 x1 x3 x4 x5 x6) (src x1) (dst x1)
    ∧ (val_main_v103 (F := Ideal) x3) = wmat3 x3 ∧ (val_main_v106 (F := Ideal) x4) = bvec3 x4 ∧ (val_main_v112 (F := Ideal) x5) = wmat3 x5 ∧ (val_main_v115 (F := Ideal) x6) = bvec3 x6 :=
  ⟨rfl, rfl, rfl, rfl, rfl⟩

/-- The reference's stage after layer 3 is the layer of the stage before it. -/
theorem layer3_eq (x0 : (⟨S50000x128, .f32⟩ : BufTy).Contents (Elt Ideal)) (x1 : (⟨S2x800000, .i32⟩ : BufTy).Contents (Elt Ideal))
    (x3 : (⟨S5x128x128, .f32⟩ : BufTy).Contents (Elt Ideal)) (x4 : (⟨S5x128, .f32⟩ : BufTy).Contents (Elt Ideal))
    (x5 : (⟨S5x128x128, .f32⟩ : BufTy).Contents (Elt Ideal)) (x6 : (⟨S5x128, .f32⟩ : BufTy).Contents (Elt Ideal)) :
    (val_main_v119 (F := Ideal) x0 x1 x3 x4 x5 x6) = layer (val_main_v90 (F := Ideal) x0 x1 x3 x4 x5 x6) (src x1) (dst x1) (wmat3 x3) (bvec3 x4) (wmat3 x5) (bvec3 x6) := by
  obtain ⟨ea, ew1, eb1, ew2, eb2⟩ := pieces3 x0 x1 x3 x4 x5 x6
  funext i
  obtain ⟨p, q, rfl⟩ : ∃ (p : Fin 50000) (q : Fin 128), i = ix2 p q := ⟨i 0, i 1, eq_ix2 i⟩
  unfold val_main_v119 val_main_v118 val_main_v113 val_main_v110 val_main_v109 val_main_v104 val_main_v101
    val_main_v117 val_main_v116 val_main_v108 val_main_v107 val_main_call6_v0 val_main_call6_cst val_main_call7_v0 val_main_call7_cst
  refine (host_entry (val_main_v90 (F := Ideal) x0 x1 x3 x4 x5 x6) (val_main_v100 (F := Ideal) x0 x1 x3 x4 x5 x6) (val_main_v103 (F := Ideal) x3) (val_main_v112 (F := Ideal) x5) (val_main_v106 (F := Ideal) x4) (val_main_v115 (F := Ideal) x6)
    dot_S50000x128_S128x128_S50000x128_1_0_0_1_n_n rfl bcast_S1x128_S50000x128_0_1 bcast_S128_S1x128_1 bcast_S_S50000x128 p q).trans ?_
  rw [ea, ew1, eb1, ew2, eb2]
  rfl

/-- Layer 4's neighbourhood sum, weights and biases in the reference are the shared host pieces. -/
theorem pieces4 (x0 : (⟨S50000x128, .f32⟩ : BufTy).Contents (Elt Ideal)) (x1 : (⟨S2x800000, .i32⟩ : BufTy).Contents (Elt Ideal))
    (x3 : (⟨S5x128x128, .f32⟩ : BufTy).Contents (Elt Ideal)) (x4 : (⟨S5x128, .f32⟩ : BufTy).Contents (Elt Ideal))
    (x5 : (⟨S5x128x128, .f32⟩ : BufTy).Contents (Elt Ideal)) (x6 : (⟨S5x128, .f32⟩ : BufTy).Contents (Elt Ideal)) :
    (val_main_v129 (F := Ideal) x0 x1 x3 x4 x5 x6) = agg (val_main_v119 (F := Ideal) x0 x1 x3 x4 x5 x6) (src x1) (dst x1)
    ∧ (val_main_v132 (F := Ideal) x3) = wmat4 x3 ∧ (val_main_v135 (F := Ideal) x4) = bvec4 x4 ∧ (val_main_v141 (F := Ideal) x5) = wmat4 x5 ∧ (val_main_v144 (F := Ideal) x6) = bvec4 x6 :=
  ⟨rfl, rfl, rfl, rfl, rfl⟩

/-- The reference's stage after layer 4 is the layer of the stage before it. -/
theorem layer4_eq (x0 : (⟨S50000x128, .f32⟩ : BufTy).Contents (Elt Ideal)) (x1 : (⟨S2x800000, .i32⟩ : BufTy).Contents (Elt Ideal))
    (x3 : (⟨S5x128x128, .f32⟩ : BufTy).Contents (Elt Ideal)) (x4 : (⟨S5x128, .f32⟩ : BufTy).Contents (Elt Ideal))
    (x5 : (⟨S5x128x128, .f32⟩ : BufTy).Contents (Elt Ideal)) (x6 : (⟨S5x128, .f32⟩ : BufTy).Contents (Elt Ideal)) :
    (val_main_v148 (F := Ideal) x0 x1 x3 x4 x5 x6) = layer (val_main_v119 (F := Ideal) x0 x1 x3 x4 x5 x6) (src x1) (dst x1) (wmat4 x3) (bvec4 x4) (wmat4 x5) (bvec4 x6) := by
  obtain ⟨ea, ew1, eb1, ew2, eb2⟩ := pieces4 x0 x1 x3 x4 x5 x6
  funext i
  obtain ⟨p, q, rfl⟩ : ∃ (p : Fin 50000) (q : Fin 128), i = ix2 p q := ⟨i 0, i 1, eq_ix2 i⟩
  unfold val_main_v148 val_main_v147 val_main_v142 val_main_v139 val_main_v138 val_main_v133 val_main_v130
    val_main_v146 val_main_v145 val_main_v137 val_main_v136 val_main_call8_v0 val_main_call8_cst val_main_call9_v0 val_main_call9_cst
  refine (host_entry (val_main_v119 (F := Ideal) x0 x1 x3 x4 x5 x6) (val_main_v129 (F := Ideal) x0 x1 x3 x4 x5 x6) (val_main_v132 (F := Ideal) x3) (val_main_v141 (F := Ideal) x5) (val_main_v135 (F := Ideal) x4) (val_main_v144 (F := Ideal) x6)
    dot_S50000x128_S128x128_S50000x128_1_0_0_1_n_n rfl bcast_S1x128_S50000x128_0_1 bcast_S128_S1x128_1 bcast_S_S50000x128 p q).trans ?_
  rw [ea, ew1, eb1, ew2, eb2]
  rfl

/-- The reference's result is the read-out of its fifth stage. -/
theorem result_eq (x0 : (⟨S50000x128, .f32⟩ : BufTy).Contents (Elt Ideal)) (x1 : (⟨S2x800000, .i32⟩ : BufTy).Contents (Elt Ideal))
    (x3 : (⟨S5x128x128, .f32⟩ : BufTy).Contents (Elt Ideal)) (x4 : (⟨S5x128, .f32⟩ : BufTy).Contents (Elt Ideal))
    (x5 : (⟨S5x128x128, .f32⟩ : BufTy).Contents (Elt Ideal)) (x6 : (⟨S5x128, .f32⟩ : BufTy).Contents (Elt Ideal))
    (x2 : (⟨S50000, .i32⟩ : BufTy).Contents (Elt Ideal)) (x7 : (⟨S128x1, .f32⟩ : BufTy).Contents (Elt Ideal))
    (x8 : (⟨S1, .f32⟩ : BufTy).Contents (Elt Ideal)) :
    val_main_v163 (F := Ideal) x0 x1 x2 x3 x4 x5 x6 x7 x8 = readout (val_main_v148 (F := Ideal) x0 x1 x3 x4 x5 x6) x2 x7 x8 := rfl

/-- The reference's result is the network of its arguments. -/
theorem network_eq (x0 : (⟨S50000x128, .f32⟩ : BufTy).Contents (Elt Ideal)) (x1 : (⟨S2x800000, .i32⟩ : BufTy).Contents (Elt Ideal))
    (x3 : (⟨S5x128x128, .f32⟩ : BufTy).Contents (Elt Ideal)) (x4 : (⟨S5x128, .f32⟩ : BufTy).Contents (Elt Ideal))
    (x5 : (⟨S5x128x128, .f32⟩ : BufTy).Contents (Elt Ideal)) (x6 : (⟨S5x128, .f32⟩ : BufTy).Contents (Elt Ideal))
    (x2 : (⟨S50000, .i32⟩ : BufTy).Contents (Elt Ideal)) (x7 : (⟨S128x1, .f32⟩ : BufTy).Contents (Elt Ideal))
    (x8 : (⟨S1, .f32⟩ : BufTy).Contents (Elt Ideal)) :
    val_main_v163 (F := Ideal) x0 x1 x2 x3 x4 x5 x6 x7 x8 = network x0 x1 x2 x3 x4 x5 x6 x7 x8 := by
  rw [result_eq, layer4_eq, layer3_eq, layer2_eq, layer1_eq, layer0_eq]
  rfl

end Cert.Gin.Ref

end
-- ==== Proof.lean ====
/-
  The five conjuncts of the claim for the five-layer graph network.

  The kernel program and the reference share every host operation outside a layer's dense arithmetic: the split of
  the edge list, each layer's neighbourhood sum, the slicing of weights and biases, and the read-out. Inside a
  layer the kernel computes relu(relu((h + aggr) W1 + b1) W2 + b2) on blocks of 5000 rows with sixteen-bit operands
  and a zero accumulator, the reference on the whole array with dot_general; over the extended reals both are the
  same expression entry by entry (Proof/Mlp.lean), so each program's result is one function, `network`, of the
  arguments (Proof/KernelValue.lean for the kernel program, Proof/RefValue.lean for the reference), and from
  memories that agree on the arguments the two results are equal. No finiteness of the inputs is needed.
  The frames of the two kernel programs are the generated ones; the reference's frame is its generated run with
  the result dropped; the idealization rewrote nothing, so `preserves` is `True`.
-/
import proofs.«173616_j21191368639148_1_alg».proof.Defs
import proofs.«173616_j21191368639148_1_alg».proof.Proof.Gen.Kernel
import proofs.«173616_j21191368639148_1_alg».proof.Proof.Gen.Kernel.Skeleton
import proofs.«173616_j21191368639148_1_alg».proof.Proof.Gen.Kernel.Launch
import proofs.«173616_j21191368639148_1_alg».proof.Proof.Gen.Kernel.Points
import proofs.«173616_j21191368639148_1_alg».proof.Proof.Gen.Kernel.Frame
import proofs.«173616_j21191368639148_1_alg».proof.Proof.Gen.KernelIdeal
import proofs.«173616_j21191368639148_1_alg».proof.Proof.Gen.KernelIdeal.Skeleton
import proofs.«173616_j21191368639148_1_alg».proof.Proof.Gen.KernelIdeal.Launch
import proofs.«173616_j21191368639148_1_alg».proof.Proof.Gen.KernelIdeal.Points
import proofs.«173616_j21191368639148_1_alg».proof.Proof.Gen.KernelIdeal.Frame
import proofs.«173616_j21191368639148_1_alg».proof.Proof.Gen.ReferenceIdeal
import proofs.«173616_j21191368639148_1_alg».proof.Proof.Gen.Pre_finite_inputs
import proofs.«173616_j21191368639148_1_alg».proof.Proof.Gen.ReferenceIdeal.Run
import proofs.«173616_j21191368639148_1_alg».proof.Proof.Gen.ReferenceIdeal.Read
import proofs.«173616_j21191368639148_1_alg».proof.Proof.KernelValue
import proofs.«173616_j21191368639148_1_alg».proof.Proof.RefValue
import Idealize.ShloMosaic.Adequacy
import Idealize.ShloMosaic.Init

noncomputable section

namespace Cert.Proof

open Idealize.ShloMosaic Idealize.SL.Sem

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network of the arguments. -/
theorem algebraic : Cert.algebraic_KernelIdeal_ReferenceIdeal := by
  intro m ρ m' ρ' _ hagree
  refine ⟨fun c => Cert.Gin.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.Gin.KernelValue.run m ρ, ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6, e7, e8⟩ := hagree c
  rw [Cert.ReferenceIdeal.Read.val_main_v163_eq, Cert.Gin.Ref.network_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
